-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v86_0)) (v1 : (c : Dev Cert.KernelIdeal.nD) → Buf (Elt Ideal) ((c.tc : Thread Cert.KernelIdeal.nD Cert.KernelIdeal.τ).loc Cert.KernelIdeal.main_v86_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86_0) = v0 c
          ∧ r.2.mem ((c.tc : Thread Cert.KernelIdeal.nD Cert.KernelIdeal.τ).loc Cert.KernelIdeal.main_v86_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S128 .f32) (main_arg10 : FVec F S128 .f32) (main_arg11 : FVec F S128 .f32) (main_arg12 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S128x128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128x128 .f32) (main_arg6 : FVec F S128x128 .f32) (main_arg7 : FVec F S128x128 .f32) (main_arg8 : FVec F S128 .f32) (main_arg9 : FVec F S128 .f32) (main_arg10 : FVec F S128 .f32) (main_arg11 : FVec F S128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S800000x128 : Shape := ⟨2, ![800000, 128]⟩
abbrev S5000x128 : Shape := ⟨2, ![5000, 128]⟩
abbrev S5000x1 : Shape := ⟨2, ![5000, 1]⟩

abbrev nBuf : Space → Nat
  | .hbm => 127
  | .vmem => 50
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S128x128, .bf16⟩
  | .hbm, ⟨40, _⟩ => ⟨S128x128, .bf16⟩
  | .hbm, ⟨41, _⟩ => ⟨S128x128, .bf16⟩
  | .hbm, ⟨42, _⟩ => ⟨S128x128, .bf16⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S50000x128, .bf16⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .bf16⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S50000x128, .bf16⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x128, .bf16⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S50000x128, .bf16⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S800000x128, .bf16⟩
  | .hbm, ⟨90, _⟩ => ⟨S800000x128, .f32⟩
  | .hbm, ⟨91, _⟩ => ⟨S_, .f32⟩
  | .hbm, ⟨92, _⟩ => ⟨S50000x128, .f32⟩
  | .hbm, ⟨93, _⟩ => ⟨S800000x1, .i32⟩
  | .hbm, ⟨94, _⟩ => ⟨S50000x128, .f32⟩
  | .hbm, ⟨95, _⟩ => ⟨S50000x128, .bf16⟩
  | .hbm, ⟨96, _⟩ => ⟨S_, .i32⟩
  | .hbm, ⟨97, _⟩ => ⟨S800000, .i32⟩
  | .hbm, ⟨98, _⟩ => ⟨S800000, .i1⟩
  | .hbm, ⟨99, _⟩ => ⟨S_, .i32⟩
  | .hbm, ⟨100, _⟩ => ⟨S800000, .i32⟩
  | .hbm, ⟨101, _⟩ => ⟨S800000, .i32⟩
  | .hbm, ⟨102, _⟩ => ⟨S800000, .i32⟩
  | .hbm, ⟨103, _⟩ => ⟨S800000x1, .i32⟩
  | .hbm, ⟨104, _⟩ => ⟨S800000x128, .bf16⟩
  | .hbm, ⟨105, _⟩ => ⟨S800000x128, .f32⟩
  | .hbm, ⟨106, _⟩ => ⟨S_, .f32⟩
  | .hbm, ⟨107, _⟩ => ⟨S50000x128, .f32⟩
  | .hbm, ⟨108, _⟩ => ⟨S800000x1, .i32⟩
  | .hbm, ⟨109, _⟩ => ⟨S50000x128, .f32⟩
  | .hbm, ⟨110, _⟩ => ⟨S50000x128, .bf16⟩
  | .hbm, ⟨111, _⟩ => ⟨S_, .i32⟩
  | .hbm, ⟨112, _⟩ => ⟨S800000, .i32⟩
  | .hbm, ⟨113, _⟩ => ⟨S800000, .i1⟩
  | .hbm, ⟨114, _⟩ => ⟨S_, .i32⟩
  | .hbm, ⟨115, _⟩ => ⟨S800000, .i32⟩
  | .hbm, ⟨116, _⟩ => ⟨S800000, .i32⟩
  | .hbm, ⟨117, _⟩ => ⟨S800000, .i32⟩
  | .hbm, ⟨118, _⟩ => ⟨S800000x1, .i32⟩
  | .hbm, ⟨119, _⟩ => ⟨S800000x128, .bf16⟩
  | .hbm, ⟨120, _⟩ => ⟨S800000x128, .f32⟩
  | .hbm, ⟨121, _⟩ => ⟨S_, .f32⟩
  | .hbm, ⟨122, _⟩ => ⟨S50000x128, .f32⟩
  | .hbm, ⟨123, _⟩ => ⟨S800000x1, .i32⟩
  | .hbm, ⟨124, _⟩ => ⟨S50000x128, .f32⟩
  | .hbm, ⟨125, _⟩ => ⟨S50000x128, .f32⟩
  | .hbm, ⟨126, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x1, .f32⟩
  | .local _ .vmem, ⟨5, _⟩ => ⟨S5000x1, .f32⟩
  | .local _ .vmem, ⟨6, _⟩ => ⟨S128x128, .bf16⟩
  | .local _ .vmem, ⟨7, _⟩ => ⟨S1x128, .f32⟩
  | .local _ .vmem, ⟨8, _⟩ => ⟨S5000x128, .bf16⟩
  | .local _ .vmem, ⟨9, _⟩ => ⟨S5000x128, .bf16⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S5000x1, .f32⟩
  | .local _ .vmem, ⟨15, _⟩ => ⟨S5000x1, .f32⟩
  | .local _ .vmem, ⟨16, _⟩ => ⟨S128x128, .bf16⟩
  | .local _ .vmem, ⟨17, _⟩ => ⟨S1x128, .f32⟩
  | .local _ .vmem, ⟨18, _⟩ => ⟨S5000x128, .bf16⟩
  | .local _ .vmem, ⟨19, _⟩ => ⟨S5000x128, .bf16⟩
  | .local _ .vmem, ⟨20, _⟩ => ⟨S5000x128, .f32⟩
  | .local _ .vmem, ⟨21, _⟩ => ⟨S5000x128, .f32⟩
  | .local _ .vmem, ⟨22, _⟩ => ⟨S5000x1, .f32⟩
  | .local _ .vmem, ⟨23, _⟩ => ⟨S5000x1, .f32⟩
  | .local _ .vmem, ⟨24, _⟩ => ⟨S5000x1, .f32⟩
  | .local _ .vmem, ⟨25, _⟩ => ⟨S5000x1, .f32⟩
  | .local _ .vmem, ⟨26, _⟩ => ⟨S128x128, .bf16⟩
  | .local _ .vmem, ⟨27, _⟩ => ⟨S1x128, .f32⟩
  | .local _ .vmem, ⟨28, _⟩ => ⟨S5000x128, .bf16⟩
  | .local _ .vmem, ⟨29, _⟩ => ⟨S5000x128, .bf16⟩
  | .local _ .vmem, ⟨30, _⟩ => ⟨S5000x128, .f32⟩
  | .local _ .vmem, ⟨31, _⟩ => ⟨S5000x128, .f32⟩
  | .local _ .vmem, ⟨32, _⟩ => ⟨S5000x1, .f32⟩
  | .local _ .vmem, ⟨33, _⟩ => ⟨S5000x1, .f32⟩
  | .local _ .vmem, ⟨34, _⟩ => ⟨S5000x1, .f32⟩
  | .local _ .vmem, ⟨35, _⟩ => ⟨S5000x1, .f32⟩
  | .local _ .vmem, ⟨36, _⟩ => ⟨S128x128, .bf16⟩
  | .local _ .vmem, ⟨37, _⟩ => ⟨S1x128, .f32⟩
  | .local _ .vmem, ⟨38, _⟩ => ⟨S5000x128, .bf16⟩
  | .local _ .vmem, ⟨39, _⟩ => ⟨S5000x128, .bf16⟩
  | .local _ .vmem, ⟨40, _⟩ => ⟨S5000x128, .f32⟩
  | .local _ .vmem, ⟨41, _⟩ => ⟨S5000x128, .f32⟩
  | .local _ .vmem, ⟨42, _⟩ => ⟨S5000x1, .f32⟩
  | .local _ .vmem, ⟨43, _⟩ => ⟨S5000x1, .f32⟩
  | .local _ .vmem, ⟨44, _⟩ => ⟨S128x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v4 : Ref sig .tc := ⟨.hbm, 22, rfl⟩
abbrev main_cst_2 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_3 : Ref sig .tc := ⟨.hbm, 27, rfl⟩
abbrev main_call1_v0 : Ref sig .tc := ⟨.hbm, 28, rfl⟩
abbrev main_call1_v1 : Ref sig .tc := ⟨.hbm, 29, rfl⟩
abbrev main_v8 : Ref sig .tc := ⟨.hbm, 30, rfl⟩
abbrev main_cst_4 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_5 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c : Ref sig .tc := ⟨.hbm, 51, rfl⟩
abbrev main_v27 : Ref sig .tc := ⟨.hbm, 52, rfl⟩
abbrev main_v28 : Ref sig .tc := ⟨.hbm, 53, rfl⟩
abbrev main_c_6 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_8 : Ref sig .tc := ⟨.hbm, 66, rfl⟩
abbrev main_v39 : Ref sig .tc := ⟨.hbm, 67, rfl⟩
abbrev main_v40 : Ref sig .tc := ⟨.hbm, 68, rfl⟩
abbrev main_c_9 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_10 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_11 : Ref sig .tc := ⟨.hbm, 81, rfl⟩
abbrev main_v51 : Ref sig .tc := ⟨.hbm, 82, rfl⟩
abbrev main_v52 : Ref sig .tc := ⟨.hbm, 83, rfl⟩
abbrev main_c_12 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_13 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_c_14 : Ref sig .tc := ⟨.hbm, 96, rfl⟩
abbrev main_v63 : Ref sig .tc := ⟨.hbm, 97, rfl⟩
abbrev main_v64 : Ref sig .tc := ⟨.hbm, 98, rfl⟩
abbrev main_c_15 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_16 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_17 : Ref sig .tc := ⟨.hbm, 111, rfl⟩
abbrev main_v75 : Ref sig .tc := ⟨.hbm, 112, rfl⟩
abbrev main_v76 : Ref sig .tc := ⟨.hbm, 113, rfl⟩
abbrev main_c_18 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_19 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86_0 : Ref sig .tc := ⟨.hbm, 125, rfl⟩
abbrev main_v86_1 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg4_1 : Ref sig .tc := ⟨.vmem, 47, rfl⟩
abbrev cc4_stg5_0 : Ref sig .tc := ⟨.vmem, 48, rfl⟩
abbrev cc4_stg5_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem4_1 : DmaSem sig := 47
abbrev cc4_sem5_0 : DmaSem sig := 48
abbrev cc4_sem5_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  shapeCasts_S128_S1x128 : S128.ShapeCasts S1x128
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .bf16 = 32 ∨ (Rect.block (s := S50000x128) S5000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .bf16 = 32 ∨ (Rect.block (s := S50000x128) S5000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .bf16 = 32 ∨ (Rect.block (s := S50000x128) S5000x128.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .bf16 = 32 ∨ (Rect.block (s := S50000x128) S5000x128.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v37) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v61) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v17) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v73) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v18) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v22) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v74) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v85) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v14) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v23) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v86_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v86_1) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩

abbrev nBuf : Space → Nat
  | .hbm => 167
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x128, .f32⟩
  | 4 => ⟨S128x128, .f32⟩
  | 5 => ⟨S128x128, .f32⟩
  | 6 => ⟨S128x128, .f32⟩
  | 7 => ⟨S128x128, .f32⟩
  | 8 => ⟨S128, .f32⟩
  | 9 => ⟨S128, .f32⟩
  | 10 => ⟨S128, .f32⟩
  | 11 => ⟨S128, .f32⟩
  | 12 => ⟨S128, .f32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S_, .f32⟩
  | 21 => ⟨S50000, .f32⟩
  | 22 => ⟨S50000, .f32⟩
  | 23 => ⟨S_, .f32⟩
  | 24 => ⟨S50000, .f32⟩
  | 25 => ⟨S800000x1, .i32⟩
  | 26 => ⟨S50000, .f32⟩
  | 27 => ⟨S_, .f32⟩
  | 28 => ⟨S_, .f32⟩
  | 29 => ⟨S50000, .f32⟩
  | 30 => ⟨S50000, .f32⟩
  | 31 => ⟨S_, .f32⟩
  | 32 => ⟨S50000, .f32⟩
  | 33 => ⟨S50000, .f32⟩
  | 34 => ⟨S50000x1, .f32⟩
  | 35 => ⟨S_, .f32⟩
  | 36 => ⟨S50000, .f32⟩
  | 37 => ⟨S50000, .f32⟩
  | 38 => ⟨S50000x1, .f32⟩
  | 39 => ⟨S50000x128, .f32⟩
  | 40 => ⟨S50000x128, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S_, .f32⟩
  | 51 => ⟨S50000x128, .f32⟩
  | 52 => ⟨S800000x1, .i32⟩
  | 53 => ⟨S50000x128, .f32⟩
  | 54 => ⟨S50000x128, .f32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S50000x128, .f32⟩
  | 64 => ⟨S50000x128, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S50000x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S50000x128, .f32⟩
  | 88 => ⟨S50000x128, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x128, .f32⟩
  | 98 => ⟨S_, .f32⟩
  | 99 => ⟨S50000x128, .f32⟩
  | 100 => ⟨S800000x1, .i32⟩
  | 101 => ⟨S50000x128, .f32⟩
  | 102 => ⟨S50000x128, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S50000x128, .f32⟩
  | 112 => ⟨S50000x128, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x128, .f32⟩
  | 122 => ⟨S_, .f32⟩
  | 123 => ⟨S50000x128, .f32⟩
  | 124 => ⟨S800000x1, .i32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S50000x128, .f32⟩
  | 8 => ⟨S50000x128, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x128, .f32⟩
  | 18 => ⟨S_, .f32⟩
  | 19 => ⟨S50000x128, .f32⟩
  | 20 => ⟨S800000x1, .i32⟩
  | 21 => ⟨S50000x128, .f32⟩
  | 22 => ⟨S50000x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S_, .f32⟩
  | 29 => ⟨S50000x128, .f32⟩
  | 30 => ⟨S50000x128, .f32⟩
  | 31 => ⟨S_, .f32⟩
  | 32 => ⟨S50000x128, .f32⟩
  | 33 => ⟨S50000x128, .i1⟩
  | 34 => ⟨S_, .f32⟩
  | 35 => ⟨S_, .f32⟩
  | 36 => ⟨S50000x128, .f32⟩
  | 37 => ⟨S50000x128, .f32⟩
  | 38 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v4 : Ref sig .tc := ⟨.hbm, 22, rfl⟩
abbrev main_cst_2 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_3 : Ref sig .tc := ⟨.hbm, 27, rfl⟩
abbrev main_call1_v0 : Ref sig .tc := ⟨.hbm, 28, rfl⟩
abbrev main_call1_v1 : Ref sig .tc := ⟨.hbm, 29, rfl⟩
abbrev main_v8 : Ref sig .tc := ⟨.hbm, 30, rfl⟩
abbrev main_cst_4 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_5 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_c : Ref sig .tc := ⟨.hbm, 41, rfl⟩
abbrev main_v17 : Ref sig .tc := ⟨.hbm, 42, rfl⟩
abbrev main_v18 : Ref sig .tc := ⟨.hbm, 43, rfl⟩
abbrev main_c_6 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_7 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call2_cst : Ref sig .tc := ⟨.hbm, 60, rfl⟩
abbrev main_call2_v0 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_c_8 : Ref sig .tc := ⟨.hbm, 65, rfl⟩
abbrev main_v36 : Ref sig .tc := ⟨.hbm, 66, rfl⟩
abbrev main_v37 : Ref sig .tc := ⟨.hbm, 67, rfl⟩
abbrev main_c_9 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_10 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_call3_cst : Ref sig .tc := ⟨.hbm, 84, rfl⟩
abbrev main_call3_v0 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_c_11 : Ref sig .tc := ⟨.hbm, 89, rfl⟩
abbrev main_v55 : Ref sig .tc := ⟨.hbm, 90, rfl⟩
abbrev main_v56 : Ref sig .tc := ⟨.hbm, 91, rfl⟩
abbrev main_c_12 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_13 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_call4_cst : Ref sig .tc := ⟨.hbm, 108, rfl⟩
abbrev main_call4_v0 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_c_14 : Ref sig .tc := ⟨.hbm, 113, rfl⟩
abbrev main_v74 : Ref sig .tc := ⟨.hbm, 114, rfl⟩
abbrev main_v75 : Ref sig .tc := ⟨.hbm, 115, rfl⟩
abbrev main_c_15 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_16 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_call5_cst : Ref sig .tc := ⟨.hbm, 132, rfl⟩
abbrev main_call5_v0 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_c_17 : Ref sig .tc := ⟨.hbm, 137, rfl⟩
abbrev main_v93 : Ref sig .tc := ⟨.hbm, 138, rfl⟩
abbrev main_v94 : Ref sig .tc := ⟨.hbm, 139, rfl⟩
abbrev main_c_18 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_19 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_call6_cst : Ref sig .tc := ⟨.hbm, 156, rfl⟩
abbrev main_call6_v0 : Ref sig .tc := ⟨.hbm, 157, rfl⟩
abbrev main_v109 : Ref sig .tc := ⟨.hbm, 158, rfl⟩
abbrev main_cst_20 : Ref sig .tc := ⟨.hbm, 159, rfl⟩
abbrev main_v110 : Ref sig .tc := ⟨.hbm, 160, rfl⟩
abbrev main_v111 : Ref sig .tc := ⟨.hbm, 161, rfl⟩
abbrev main_cst_21 : Ref sig .tc := ⟨.hbm, 162, rfl⟩
abbrev main_cst_22 : Ref sig .tc := ⟨.hbm, 163, rfl⟩
abbrev main_call7_v0 : Ref sig .tc := ⟨.hbm, 164, rfl⟩
abbrev main_call7_v1 : Ref sig .tc := ⟨.hbm, 165, rfl⟩
abbrev main_v112 : Ref sig .tc := ⟨.hbm, 166, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  One graph-convolution layer as a function of whole arrays, index by index, over the extended reals.

  A layer takes the aggregated messages `M` (one row per node), the two degree scalings `nd`, `ns` (one entry per
  node, kept as `n × 1` columns), a weight matrix `W` and a bias row `b`, and returns, at row `r` and column `c`,

      relu (∑ₖ (M r k · nd r) · W k c + b c) · ns r.

  The last layer has no trailing scaling by `ns`, and is followed by the indicator of `h ≥ 1/2`.
  The row count `n` is a parameter so that the same function describes a whole `50000 × 128` array and one
  `5000 × 128` block of it: row `r` of the result depends on row `r` of `M`, `nd`, `ns` only.
-/
import Idealize.ShloMosaic.PureOps.Ideal
import Idealize.ShloMosaic.Lib.ValueIdx

noncomputable section

namespace Cert.Gcn

open Idealize.ShloMosaic Idealize.ShloMosaic.ValueIdx

/-- An `a × b` array of extended reals, indexed as a rank-2 buffer is. -/
abbrev Arr (a b : Nat) : Type := (⟨2, ![a, b]⟩ : Shape).Idx → EReal

/-- The float zero, as both programs spell it. -/
abbrev zero32 : EReal := Ideal.ofBits .f32 0x00000000#32

/-- `relu (∑ₖ (M r k · nd r) · W k c + b c)`: the layer before its trailing scaling. -/
def reluAt {n : Nat} (M : Arr n 128) (nd : Arr n 1) (W : Arr 128 128) (b : Arr 1 128) (r : Fin n) (c : Fin 128) : EReal :=
  max ((∑ k : Fin 128, (M (ix2 r k) * nd (ix2 r 0)) * W (ix2 k c)) + b (ix2 0 c)) zero32

/-- `relu (∑ₖ (M r k · nd r) · W k c + b c) · ns r`: one non-final layer at row `r`, column `c`. -/
def denseAt {n : Nat} (M : Arr n 128) (nd ns : Arr n 1) (W : Arr 128 128) (b : Arr 1 128) (r : Fin n) (c : Fin 128) : EReal :=
  reluAt M nd W b r c * ns (ix2 r 0)

/-- The indicator of `h ≥ 1/2` as a float: `1` where it holds, `0` elsewhere. -/
def threshAt (h : EReal) : EReal :=
  Scalar.select (FloatOps.cmpf (F := Ideal) (φ := .f32) .oge h (Ideal.ofBits .f32 0x3F000000#32))
    (Ideal.ofBits .f32 0x3F800000#32) (Ideal.ofBits .f32 0x00000000#32)

/-- A non-final layer as a whole array. -/
def dense {n : Nat} (M : Arr n 128) (nd ns : Arr n 1) (W : Arr 128 128) (b : Arr 1 128) : Arr n 128 :=
  fun i => denseAt M nd ns W b (i 0) (i 1)

/-- The final layer as a whole array. -/
def denseLast {n : Nat} (M : Arr n 128) (nd : Arr n 1) (W : Arr 128 128) (b : Arr 1 128) : Arr n 128 :=
  fun i => reluAt M nd W b (i 0) (i 1)

/-- The thresholded final layer as a whole array. -/
def thresh {n : Nat} (h : Arr n 128) : Arr n 128 := fun i => threshAt (h i)

theorem dense_apply {n : Nat} (M : Arr n 128) (nd ns : Arr n 1) (W : Arr 128 128) (b : Arr 1 128) (r : Fin n) (c : Fin 128) :
    dense M nd ns W b (ix2 r c) = denseAt M nd ns W b r c := rfl

theorem denseLast_apply {n : Nat} (M : Arr n 128) (nd : Arr n 1) (W : Arr 128 128) (b : Arr 1 128) (r : Fin n) (c : Fin 128) :
    denseLast M nd W b (ix2 r c) = reluAt M nd W b r c := rfl

end Cert.Gcn

end
-- ==== Proof.Boundary.lean ====
/-
  The buffer contents at the boundaries of the idealized kernel's run, as host operations of the launch arrays.

  Before the first kernel the host computes the two degree scalings (a scatter-add of ones over the edge endpoints,
  clipped below at one, raised to the power -1/2, as `50000 × 1` columns), the scaled input features, and their
  aggregation over the edges: gather the rows at the edges' sources, add them into the rows at the edges' destinations.
  Between two kernels the host aggregates the previous kernel's output in the same way. The scalings, the weights, the bias
  rows and the edge lists are written once and never again, so every later boundary still holds them.
-/
import proofs.«176144_j76201309766160_2_alg».proof.Proof.Gen.KernelIdeal.Frame

set_option maxRecDepth 16384

noncomputable section

namespace Cert.KernelIdeal.Boundary

open Cert.KernelIdeal Cert.KernelIdeal.Gen
open Idealize.ShloMosaic Idealize.ShloMosaic.TcCoe Idealize.SL.Sem Idealize.ShloMosaic.StableHlo

variable {F : FTy → Type} [FloatOps F]

/-- The edge endpoints as gather indices: a negative index wraps around by the row count, and the list becomes a column. -/
def wrapIdx (a : (⟨S800000, .i32⟩ : BufTy).Contents (Elt F)) : (⟨S800000x1, .i32⟩ : BufTy).Contents (Elt F) :=
  broadcastInDim S800000x1 ![0] bcast_S800000_S800000x1_0
    (select (cmpi .slt a (broadcastInDim S800000 ![] bcast_S_S800000 (constantI S_ 32 0#32)))
      (addi a (broadcastInDim S800000 ![] bcast_S_S800000 (constantI S_ 32 50000#32))) a)

/-- Aggregation over the edges: the rows of `x` at the sources `a1`, added into the rows at the destinations `a2`. -/
def agg (a1 a2 : (⟨S800000, .i32⟩ : BufTy).Contents (Elt F)) (x : (⟨S50000x128, .bf16⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 a2)
    (extf .f32 (Host.gather gather_S50000x128_S800000x1_S800000x128_1_0_n_n_0_1_1128 x (wrapIdx a1)) bitsLt_bf16_f32)

/-- The degree scaling of an endpoint list: the count of each node among the endpoints, at least one, to the power -1/2. -/
def degScale (a : (⟨S800000, .i32⟩ : BufTy).Contents (Elt F)) : (⟨S50000, .f32⟩ : BufTy).Contents (Elt F) :=
  Host.powf
    (maximumf (broadcastInDim S50000 ![] bcast_S_S50000 (id (constant S_ .f32 0x3F800000#32)))
      (Host.scatterAdd scatter_S50000_S800000x1_S800000_n_0_0_1
        (broadcastInDim S50000 ![] bcast_S_S50000 (constant S_ .f32 0x00000000#32))
        (broadcastInDim S800000x1 ![0] bcast_S800000_S800000x1_0 a)
        (broadcastInDim S800000 ![] bcast_S_S800000 (constant S_ .f32 0x3F800000#32))))
    (broadcastInDim S50000 ![] bcast_S_S50000 (constant S_ .f32 0xBF000000#32))

/-- The scaling as a `50000 × 1` column. -/
def scaleCol (a : (⟨S800000, .i32⟩ : BufTy).Contents (Elt F)) : (⟨S50000x1, .f32⟩ : BufTy).Contents (Elt F) :=
  shapeCast S50000x1 (degScale a) shapeCasts_S50000_S50000x1

/-- The input features scaled by the sources' scaling. -/
def scaledInput (a0 : (⟨S50000x128, .f32⟩ : BufTy).Contents (Elt F)) (a1 : (⟨S800000, .i32⟩ : BufTy).Contents (Elt F)) :
    (⟨S50000x128, .bf16⟩ : BufTy).Contents (Elt F) :=
  truncf .bf16 (mulf a0 (broadcastInDim S50000x128 ![0, 1] bcast_S50000x1_S50000x128_0_1 (scaleCol a1))) bitsLt_bf16_f32

variable (m : (ℓ : Loc nD τ sig) → Buf (Elt F) ℓ) (ρ : Dev nD → PrngReg) (c : Dev nD)

/-! ## Before the first kernel -/

theorem entry0_ns : W5 m ρ c (Proc.devRef .tc main_v11) = scaleCol (m ((c : Thread nD τ).loc main_arg1)) := by
  unfold W5 W4 W3 W2 W1
  simp only [hostOps0, hostOps0_1, hostOps0_2, hostOps0_3, hostOps0_4]
  after_results_simp
  all_goals rfl

theorem entry0_nd : W5 m ρ c (Proc.devRef .tc main_v14) = scaleCol (m ((c : Thread nD τ).loc main_arg2)) := by
  unfold W5 W4 W3 W2 W1
  simp only [hostOps0, hostOps0_1, hostOps0_2, hostOps0_3, hostOps0_4]
  after_results_simp
  all_goals rfl

theorem entry0_msg : W5 m ρ c (Proc.devRef .tc main_v37)
    = agg (m ((c : Thread nD τ).loc main_arg1)) (m ((c : Thread nD τ).loc main_arg2))
        (scaledInput (m ((c : Thread nD τ).loc main_arg0)) (m ((c : Thread nD τ).loc main_arg1))) := by
  unfold W5 W4 W3 W2 W1
  simp only [hostOps0, hostOps0_1, hostOps0_2, hostOps0_3, hostOps0_4]
  after_results_simp
  all_goals rfl

theorem entry0_main_v15 : W5 m ρ c (Proc.devRef .tc main_v15) = truncf .bf16 (m ((c : Thread nD τ).loc main_arg3)) bitsLt_bf16_f32 := by
  unfold W5 W4 W3 W2 W1
  simp only [hostOps0, hostOps0_1, hostOps0_2, hostOps0_3, hostOps0_4]
  after_results_simp
  all_goals rfl

theorem entry0_main_v16 : W5 m ρ c (Proc.devRef .tc main_v16) = truncf .bf16 (m ((c : Thread nD τ).loc main_arg4)) bitsLt_bf16_f32 := by
  unfold W5 W4 W3 W2 W1
  simp only [hostOps0, hostOps0_1, hostOps0_2, hostOps0_3, hostOps0_4]
  after_results_simp
  all_goals rfl

theorem entry0_main_v17 : W5 m ρ c (Proc.devRef .tc main_v17) = truncf .bf16 (m ((c : Thread nD τ).loc main_arg5)) bitsLt_bf16_f32 := by
  unfold W5 W4 W3 W2 W1
  simp only [hostOps0, hostOps0_1, hostOps0_2, hostOps0_3, hostOps0_4]
  after_results_simp
  all_goals rfl

theorem entry0_main_v18 : W5 m ρ c (Proc.devRef .tc main_v18) = truncf .bf16 (m ((c : Thread nD τ).loc main_arg6)) bitsLt_bf16_f32 := by
  unfold W5 W4 W3 W2 W1
  simp only [hostOps0, hostOps0_1, hostOps0_2, hostOps0_3, hostOps0_4]
  after_results_simp
  all_goals rfl

theorem entry0_main_v19 : W5 m ρ c (Proc.devRef .tc main_v19) = shapeCast S1x128 (m ((c : Thread nD τ).loc main_arg8)) shapeCasts_S128_S1x128 := by
  unfold W5 W4 W3 W2 W1
  simp only [hostOps0, hostOps0_1, hostOps0_2, hostOps0_3, hostOps0_4]
  after_results_simp
  all_goals rfl

theorem entry0_main_v20 : W5 m ρ c (Proc.devRef .tc main_v20) = shapeCast S1x128 (m ((c : Thread nD τ).loc main_arg9)) shapeCasts_S128_S1x128 := by
  unfold W5 W4 W3 W2 W1
  simp only [hostOps0, hostOps0_1, hostOps0_2, hostOps0_3, hostOps0_4]
  after_results_simp
  all_goals rfl

theorem entry0_main_v21 : W5 m ρ c (Proc.devRef .tc main_v21) = shapeCast S1x128 (m ((c : Thread nD τ).loc main_arg10)) shapeCasts_S128_S1x128 := by
  unfold W5 W4 W3 W2 W1
  simp only [hostOps0, hostOps0_1, hostOps0_2, hostOps0_3, hostOps0_4]
  after_results_simp
  all_goals rfl

theorem entry0_main_v22 : W5 m ρ c (Proc.devRef .tc main_v22) = shapeCast S1x128 (m ((c : Thread nD τ).loc main_arg11)) shapeCasts_S128_S1x128 := by
  unfold W5 W4 W3 W2 W1
  simp only [hostOps0, hostOps0_1, hostOps0_2, hostOps0_3, hostOps0_4]
  after_results_simp
  all_goals rfl

theorem entry0_main_v23 : W5 m ρ c (Proc.devRef .tc main_v23) = shapeCast S1x128 (m ((c : Thread nD τ).loc main_arg12)) shapeCasts_S128_S1x128 := by
  unfold W5 W4 W3 W2 W1
  simp only [hostOps0, hostOps0_1, hostOps0_2, hostOps0_3, hostOps0_4]
  after_results_simp
  all_goals rfl

/-! ## What is written once stays -/

theorem keep7_main_v14 : W7 m ρ c (Proc.devRef .tc main_v14) = W5 m ρ c (Proc.devRef .tc main_v14) :=
  calc W7 m ρ c (Proc.devRef .tc main_v14)
    _ = W6 m ρ c (Proc.devRef .tc main_v14) := StableHlo.after_of_forall_not_mem (b := Proc.devRef .tc main_v14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v14) := (W6_arr m ρ c 1).trans (((dat0 (V5 m ρ) c).arrAt_in 1 rfl _).trans (A_eq0 (V5 m ρ) c 1))

theorem keep9_main_v14 : W9 m ρ c (Proc.devRef .tc main_v14) = W5 m ρ c (Proc.devRef .tc main_v14) :=
  calc W9 m ρ c (Proc.devRef .tc main_v14)
    _ = W8 m ρ c (Proc.devRef .tc main_v14) := StableHlo.after_of_forall_not_mem (b := Proc.devRef .tc main_v14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v14) := (W8_arr m ρ c 1).trans (((dat1 (V7 m ρ) c).arrAt_in 1 rfl _).trans (A_eq1 (V7 m ρ) c 1))
    _ = W6 m ρ c (Proc.devRef .tc main_v14) := StableHlo.after_of_forall_not_mem (b := Proc.devRef .tc main_v14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v14) := (W6_arr m ρ c 1).trans (((dat0 (V5 m ρ) c).arrAt_in 1 rfl _).trans (A_eq0 (V5 m ρ) c 1))

theorem keep11_main_v14 : W11 m ρ c (Proc.devRef .tc main_v14) = W5 m ρ c (Proc.devRef .tc main_v14) :=
  calc W11 m ρ c (Proc.devRef .tc main_v14)
    _ = W10 m ρ c (Proc.devRef .tc main_v14) := StableHlo.after_of_forall_not_mem (b := Proc.devRef .tc main_v14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v14) := (W10_arr m ρ c 1).trans (((dat2 (V9 m ρ) c).arrAt_in 1 rfl _).trans (A_eq2 (V9 m ρ) c 1))
    _ = W8 m ρ c (Proc.devRef .tc main_v14) := StableHlo.after_of_forall_not_mem (b := Proc.devRef .tc main_v14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v14) := (W8_arr m ρ c 1).trans (((dat1 (V7 m ρ) c).arrAt_in 1 rfl _).trans (A_eq1 (V7 m ρ) c 1))
    _ = W6 m ρ c (Proc.devRef .tc main_v14) := StableHlo.after_of_forall_not_mem (b := Proc.devRef .tc main_v14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v14) := (W6_arr m ρ c 1).trans (((dat0 (V5 m ρ) c).arrAt_in 1 rfl _).trans (A_eq0 (V5 m ρ) c 1))

theorem keep13_main_v14 : W13 m ρ c (Proc.devRef .tc main_v14) = W5 m ρ c (Proc.devRef .tc main_v14) :=
  calc W13 m ρ c (Proc.devRef .tc main_v14)
    _ = W12 m ρ c (Proc.devRef .tc main_v14) := StableHlo.after_of_forall_not_mem (b := Proc.devRef .tc main_v14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v14) := (W12_arr m ρ c 1).trans (((dat3 (V11 m ρ) c).arrAt_in 1 rfl _).trans (A_eq3 (V11 m ρ) c 1))
    _ = W10 m ρ c (Proc.devRef .tc main_v14) := StableHlo.after_of_forall_not_mem (b := Proc.devRef .tc main_v14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v14) := (W10_arr m ρ c 1).trans (((dat2 (V9 m ρ) c).arrAt_in 1 rfl _).trans (A_eq2 (V9 m ρ) c 1))
    _ = W8 m ρ c (Proc.devRef .tc main_v14) := StableHlo.after_of_forall_not_mem (b := Proc.devRef .tc main_v14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v14) := (W8_arr m ρ c 1).trans (((dat1 (V7 m ρ) c).arrAt_in 1 rfl _).trans (A_eq1 (V7 m ρ) c 1))
    _ = W6 m ρ c (Proc.devRef .tc main_v14) := StableHlo.after_of_forall_not_mem (b := Proc.devRef .tc main_v14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v14) := (W6_arr m ρ c 1).trans (((dat0 (V5 m ρ) c).arrAt_in 1 rfl _).trans (A_eq0 (V5 m ρ) c 1))

theorem keep7_main_v11 : W7 m ρ c (Proc.devRef .tc main_v11) = W5 m ρ c (Proc.devRef .tc main_v11) :=
  calc W7 m ρ c (Proc.devRef .tc main_v11)
    _ = W6 m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v11) := (W6_arr m ρ c 2).trans (((dat0 (V5 m ρ) c).arrAt_in 2 rfl _).trans (A_eq0 (V5 m ρ) c 2))

theorem keep9_main_v11 : W9 m ρ c (Proc.devRef .tc main_v11) = W5 m ρ c (Proc.devRef .tc main_v11) :=
  calc W9 m ρ c (Proc.devRef .tc main_v11)
    _ = W8 m ρ c (Proc.devRef .tc main_v11) := StableHlo.after_of_forall_not_mem (b := Proc.devRef .tc main_v11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v11) := (W8_arr m ρ c 2).trans (((dat1 (V7 m ρ) c).arrAt_in 2 rfl _).trans (A_eq1 (V7 m ρ) c 2))
    _ = W6 m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v11) := (W6_arr m ρ c 2).trans (((dat0 (V5 m ρ) c).arrAt_in 2 rfl _).trans (A_eq0 (V5 m ρ) c 2))

theorem keep11_main_v11 : W11 m ρ c (Proc.devRef .tc main_v11) = W5 m ρ c (Proc.devRef .tc main_v11) :=
  calc W11 m ρ c (Proc.devRef .tc main_v11)
    _ = W10 m ρ c (Proc.devRef .tc main_v11) := StableHlo.after_of_forall_not_mem (b := Proc.devRef .tc main_v11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v11) := (W10_arr m ρ c 2).trans (((dat2 (V9 m ρ) c).arrAt_in 2 rfl _).trans (A_eq2 (V9 m ρ) c 2))
    _ = W8 m ρ c (Proc.devRef .tc main_v11) := StableHlo.after_of_forall_not_mem (b := Proc.devRef .tc main_v11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v11) := (W8_arr m ρ c 2).trans (((dat1 (V7 m ρ) c).arrAt_in 2 rfl _).trans (A_eq1 (V7 m ρ) c 2))
    _ = W6 m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v11) := (W6_arr m ρ c 2).trans (((dat0 (V5 m ρ) c).arrAt_in 2 rfl _).trans (A_eq0 (V5 m ρ) c 2))

theorem keep7_main_v16 : W7 m ρ c (Proc.devRef .tc main_v16) = W5 m ρ c (Proc.devRef .tc main_v16) :=
  calc W7 m ρ c (Proc.devRef .tc main_v16)
    _ = W6 m ρ c (Proc.devRef .tc main_v16) := StableHlo.after_of_forall_not_mem (b := Proc.devRef .tc main_v16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v16) := W6_of_ne m ρ c main_v16 (by decide)

theorem keep7_main_v20 : W7 m ρ c (Proc.devRef .tc main_v20) = W5 m ρ c (Proc.devRef .tc main_v20) :=
  calc W7 m ρ c (Proc.devRef .tc main_v20)
    _ = W6 m ρ c (Proc.devRef .tc main_v20) := StableHlo.after_of_forall_not_mem (b := Proc.devRef .tc main_v20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v20) := W6_of_ne m ρ c main_v20 (by decide)

theorem keep9_main_v17 : W9 m ρ c (Proc.devRef .tc main_v17) = W5 m ρ c (Proc.devRef .tc main_v17) :=
  calc W9 m ρ c (Proc.devRef .tc main_v17)
    _ = W8 m ρ c (Proc.devRef .tc main_v17) := StableHlo.after_of_forall_not_mem (b := Proc.devRef .tc main_v17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v17) := W8_of_ne m ρ c main_v17 (by decide)
    _ = W6 m ρ c (Proc.devRef .tc main_v17) := StableHlo.after_of_forall_not_mem (b := Proc.devRef .tc main_v17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v17) := W6_of_ne m ρ c main_v17 (by decide)

theorem keep9_main_v21 : W9 m ρ c (Proc.devRef .tc main_v21) = W5 m ρ c (Proc.devRef .tc main_v21) :=
  calc W9 m ρ c (Proc.devRef .tc main_v21)
    _ = W8 m ρ c (Proc.devRef .tc main_v21) := StableHlo.after_of_forall_not_mem (b := Proc.devRef .tc main_v21) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v21) := W8_of_ne m ρ c main_v21 (by decide)
    _ = W6 m ρ c (Proc.devRef .tc main_v21) := StableHlo.after_of_forall_not_mem (b := Proc.devRef .tc main_v21) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v21) := W6_of_ne m ρ c main_v21 (by decide)

theorem keep11_main_v18 : W11 m ρ c (Proc.devRef .tc main_v18) = W5 m ρ c (Proc.devRef .tc main_v18) :=
  calc W11 m ρ c (Proc.devRef .tc main_v18)
    _ = W10 m ρ c (Proc.devRef .tc main_v18) := StableHlo.after_of_forall_not_mem (b := Proc.devRef .tc main_v18) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v18) := W10_of_ne m ρ c main_v18 (by decide)
    _ = W8 m ρ c (Proc.devRef .tc main_v18) := StableHlo.after_of_forall_not_mem (b := Proc.devRef .tc main_v18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v18) := W8_of_ne m ρ c main_v18 (by decide)
    _ = W6 m ρ c (Proc.devRef .tc main_v18) := StableHlo.after_of_forall_not_mem (b := Proc.devRef .tc main_v18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v18) := W6_of_ne m ρ c main_v18 (by decide)

theorem keep11_main_v22 : W11 m ρ c (Proc.devRef .tc main_v22) = W5 m ρ c (Proc.devRef .tc main_v22) :=
  calc W11 m ρ c (Proc.devRef .tc main_v22)
    _ = W10 m ρ c (Proc.devRef .tc main_v22) := StableHlo.after_of_forall_not_mem (b := Proc.devRef .tc main_v22) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v22) := W10_of_ne m ρ c main_v22 (by decide)
    _ = W8 m ρ c (Proc.devRef .tc main_v22) := StableHlo.after_of_forall_not_mem (b := Proc.devRef .tc main_v22) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v22) := W8_of_ne m ρ c main_v22 (by decide)
    _ = W6 m ρ c (Proc.devRef .tc main_v22) := StableHlo.after_of_forall_not_mem (b := Proc.devRef .tc main_v22) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v22) := W6_of_ne m ρ c main_v22 (by decide)

theorem keep13_main_v23 : W13 m ρ c (Proc.devRef .tc main_v23) = W5 m ρ c (Proc.devRef .tc main_v23) :=
  calc W13 m ρ c (Proc.devRef .tc main_v23)
    _ = W12 m ρ c (Proc.devRef .tc main_v23) := StableHlo.after_of_forall_not_mem (b := Proc.devRef .tc main_v23) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v23) := W12_of_ne m ρ c main_v23 (by decide)
    _ = W10 m ρ c (Proc.devRef .tc main_v23) := StableHlo.after_of_forall_not_mem (b := Proc.devRef .tc main_v23) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v23) := W10_of_ne m ρ c main_v23 (by decide)
    _ = W8 m ρ c (Proc.devRef .tc main_v23) := StableHlo.after_of_forall_not_mem (b := Proc.devRef .tc main_v23) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v23) := W8_of_ne m ρ c main_v23 (by decide)
    _ = W6 m ρ c (Proc.devRef .tc main_v23) := StableHlo.after_of_forall_not_mem (b := Proc.devRef .tc main_v23) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v23) := W6_of_ne m ρ c main_v23 (by decide)

theorem arg6_main_arg1 : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := StableHlo.after_of_forall_not_mem (b := Proc.devRef .tc main_arg1) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem arg8_main_arg1 : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := StableHlo.after_of_forall_not_mem (b := Proc.devRef .tc main_arg1) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem arg10_main_arg1 : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := StableHlo.after_of_forall_not_mem (b := Proc.devRef .tc main_arg1) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem arg12_main_arg1 : W12 m ρ c (Proc.devRef .tc main_arg1) = m ((c : Thread nD τ).loc main_arg1) :=
  calc W12 m ρ c (Proc.devRef .tc main_arg1)
    _ = W11 m ρ c (Proc.devRef .tc main_arg1) := W12_of_ne m ρ c main_arg1 (by decide)
    _ = W10 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg1) := W10_of_ne m ρ c main_arg1 (by decide)
    _ = W8 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := StableHlo.after_of_forall_not_mem (b := Proc.devRef .tc main_arg1) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem arg6_main_arg2 : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := StableHlo.after_of_forall_not_mem (b := Proc.devRef .tc main_arg2) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem arg8_main_arg2 : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := StableHlo.after_of_forall_not_mem (b := Proc.devRef .tc main_arg2) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem arg10_main_arg2 : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := StableHlo.after_of_forall_not_mem (b := Proc.devRef .tc main_arg2) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem arg12_main_arg2 : W12 m ρ c (Proc.devRef .tc main_arg2) = m ((c : Thread nD τ).loc main_arg2) :=
  calc W12 m ρ c (Proc.devRef .tc main_arg2)
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := StableHlo.after_of_forall_not_mem (b := Proc.devRef .tc main_arg2) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem arg13_main_arg7 : W13 m ρ c (Proc.devRef .tc main_arg7) = m ((c : Thread nD τ).loc main_arg7) :=
  calc W13 m ρ c (Proc.devRef .tc main_arg7)
    _ = W12 m ρ c (Proc.devRef .tc main_arg7) := StableHlo.after_of_forall_not_mem (b := Proc.devRef .tc main_arg7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg7) := W12_of_ne m ρ c main_arg7 (by decide)
    _ = W10 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg7) := W10_of_ne m ρ c main_arg7 (by decide)
    _ = W8 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := StableHlo.after_of_forall_not_mem (b := Proc.devRef .tc main_arg7) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-! ## Between two kernels: the previous output, aggregated over the edges -/

theorem entry1_msg : W7 m ρ c (Proc.devRef .tc main_v49)
    = agg (m ((c : Thread nD τ).loc main_arg1)) (m ((c : Thread nD τ).loc main_arg2)) (W6 m ρ c (Proc.devRef .tc main_v38)) := by
  rw [← arg6_main_arg1 m ρ c, ← arg6_main_arg2 m ρ c]
  unfold W7
  simp only [hostOps1]
  after_results_simp
  all_goals rfl

theorem entry2_msg : W9 m ρ c (Proc.devRef .tc main_v61)
    = agg (m ((c : Thread nD τ).loc main_arg1)) (m ((c : Thread nD τ).loc main_arg2)) (W8 m ρ c (Proc.devRef .tc main_v50)) := by
  rw [← arg8_main_arg1 m ρ c, ← arg8_main_arg2 m ρ c]
  unfold W9
  simp only [hostOps2]
  after_results_simp
  all_goals rfl

theorem entry3_msg : W11 m ρ c (Proc.devRef .tc main_v73)
    = agg (m ((c : Thread nD τ).loc main_arg1)) (m ((c : Thread nD τ).loc main_arg2)) (W10 m ρ c (Proc.devRef .tc main_v62)) := by
  rw [← arg10_main_arg1 m ρ c, ← arg10_main_arg2 m ρ c]
  unfold W11
  simp only [hostOps3]
  after_results_simp
  all_goals rfl

theorem entry4_msg : W13 m ρ c (Proc.devRef .tc main_v85)
    = agg (m ((c : Thread nD τ).loc main_arg1)) (m ((c : Thread nD τ).loc main_arg2)) (W12 m ρ c (Proc.devRef .tc main_v74)) := by
  rw [← arg12_main_arg1 m ρ c, ← arg12_main_arg2 m ρ c]
  unfold W13
  simp only [hostOps4]
  after_results_simp
  all_goals rfl

end Cert.KernelIdeal.Boundary

end
-- ==== Proof.Payload.lean ====
/-
  The kernel's arithmetic at one element of a block.

  Each of the five kernel functions computes, from a `5000 × 128` block `M` of aggregated messages, the two
  `5000 × 1` degree columns, a `128 × 128` weight matrix `W` and a `1 × 128` bias row `b`, the array whose element at
  row `p`, column `q` is

      relu (∑ₖ (M p k · nd p) · W k q + b q) · ns p

  (the last function: without the trailing `· ns p`, and beside it the indicator of that value being `≥ 1/2`).
  Read over the extended reals every change of float format is the identity, a shape cast to the same shape is the
  identity, a column (row) broadcast reads the column's (row's) entry of that row (column), and a matrix product into
  a zero accumulator is the sum over the contraction coordinate. The statements are the layer functions of `Spec.lean`
  at `n = 5000`.
-/
import proofs.«176144_j76201309766160_2_alg».proof.Proof.Spec
import proofs.«176144_j76201309766160_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Gcn.Ker

open Cert.KernelIdeal Cert.KernelIdeal.Gen Idealize.ShloMosaic Idealize.SL.Sem Idealize.ShloMosaic.ValueIdx

/-! ## One column broadcast over many -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The matrix product at an element

The dimension numbers contract the left operand's axis 1 with the right operand's axis 0 and keep the left's axis 0
and the right's axis 1: at output `(p, q)` and contraction coordinate `k` the operands are read at `(p, k)` and
`(k, q)`. -/

theorem lhs_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem lhs_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c

theorem rhs_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c

theorem rhs_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product of a `5000 × 128` and a `128 × 128` array into the zero accumulator, at `(p, q)`:
    `∑ₖ A (p, k) · B (k, q)`, whatever the operands' formats and the precision attribute. -/
theorem matmul_zero_apply {φ₁ φ₂ : FTy} (prec : Option ContractPrecision) (A : FVec Ideal S5000x128 φ₁)
    (B : FVec Ideal S128x128 φ₂) (p : Fin 5000) (q : Fin 128) :
    matmul (F := Ideal) dot_S5000x128_S128x128_S5000x128_1_0_0_1_n_n prec A B (constant (F := Ideal) S5000x128 .f32 0x00000000#32) (ix2 p q)
      = ∑ k : Fin 128, A (ix2 p k) * B (ix2 k q) := by
  show FloatOps.matmul dot_S5000x128_S128x128_S5000x128_1_0_0_1_n_n prec A B (constant (F := Ideal) S5000x128 .f32 0x00000000#32) (ix2 p q) = _
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_0 _ _
      | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs_0 _ _).trans hk
      | ⟨1, _⟩ => exact rhs_1 _ _)
  rw [el, er]

/-! ## The five kernel functions' stored values at an element -/

/-- Layer 0's stored block at row `p`, column `q`: `relu (∑ₖ (M p k · nd p) · W k q + b q) · ns p`. -/
theorem k0_pay1_apply (x0 : Vec Ideal S5000x128 .f32) (x1 x2 : Vec Ideal S5000x1 .f32) (x3 : Vec Ideal S128x128 .bf16)
    (x4 : Vec Ideal S1x128 .f32) (p : Fin 5000) (q : Fin 128) :
    k0_pay1 (F := Ideal) x0 x1 x2 x3 x4 (ix2 p q) = Cert.Gcn.denseAt (n := 5000) x0 x1 x2 x3 x4 p q := by
  simp only [k0_pay1, shapeCast_self]
  simp only [truncf_apply, mulf_apply, maximumf_apply, addf_apply, broadcast_apply, matmul_zero_apply,
    broadcastTo_a1_ab_apply, broadcastTo_1b_ab_apply]
  rfl

/-- Layer 1's stored block at row `p`, column `q`: `relu (∑ₖ (M p k · nd p) · W k q + b q) · ns p`. -/
theorem k1_pay1_apply (x0 : Vec Ideal S5000x128 .f32) (x1 x2 : Vec Ideal S5000x1 .f32) (x3 : Vec Ideal S128x128 .bf16)
    (x4 : Vec Ideal S1x128 .f32) (p : Fin 5000) (q : Fin 128) :
    k1_pay1 (F := Ideal) x0 x1 x2 x3 x4 (ix2 p q) = Cert.Gcn.denseAt (n := 5000) x0 x1 x2 x3 x4 p q := by
  simp only [k1_pay1, shapeCast_self]
  simp only [truncf_apply, mulf_apply, maximumf_apply, addf_apply, broadcast_apply, matmul_zero_apply,
    broadcastTo_a1_ab_apply, broadcastTo_1b_ab_apply]
  rfl

/-- Layer 2's stored block at row `p`, column `q`: `relu (∑ₖ (M p k · nd p) · W k q + b q) · ns p`. -/
theorem k2_pay1_apply (x0 : Vec Ideal S5000x128 .f32) (x1 x2 : Vec Ideal S5000x1 .f32) (x3 : Vec Ideal S128x128 .bf16)
    (x4 : Vec Ideal S1x128 .f32) (p : Fin 5000) (q : Fin 128) :
    k2_pay1 (F := Ideal) x0 x1 x2 x3 x4 (ix2 p q) = Cert.Gcn.denseAt (n := 5000) x0 x1 x2 x3 x4 p q := by
  simp only [k2_pay1, shapeCast_self]
  simp only [truncf_apply, mulf_apply, maximumf_apply, addf_apply, broadcast_apply, matmul_zero_apply,
    broadcastTo_a1_ab_apply, broadcastTo_1b_ab_apply]
  rfl

/-- Layer 3's stored block at row `p`, column `q`: `relu (∑ₖ (M p k · nd p) · W k q + b q) · ns p`. -/
theorem k3_pay1_apply (x0 : Vec Ideal S5000x128 .f32) (x1 x2 : Vec Ideal S5000x1 .f32) (x3 : Vec Ideal S128x128 .bf16)
    (x4 : Vec Ideal S1x128 .f32) (p : Fin 5000) (q : Fin 128) :
    k3_pay1 (F := Ideal) x0 x1 x2 x3 x4 (ix2 p q) = Cert.Gcn.denseAt (n := 5000) x0 x1 x2 x3 x4 p q := by
  simp only [k3_pay1, shapeCast_self]
  simp only [truncf_apply, mulf_apply, maximumf_apply, addf_apply, broadcast_apply, matmul_zero_apply,
    broadcastTo_a1_ab_apply, broadcastTo_1b_ab_apply]
  rfl

/-- The last layer's first stored block at row `p`, column `q`: `relu (∑ₖ (M p k · nd p) · W k q + b q)`. -/
theorem k4_pay1_apply (x0 : Vec Ideal S5000x128 .f32) (x1 : Vec Ideal S5000x1 .f32) (x2 : Vec Ideal S128x128 .f32)
    (x3 : Vec Ideal S1x128 .f32) (p : Fin 5000) (q : Fin 128) :
    k4_pay1 (F := Ideal) x0 x1 x2 x3 (ix2 p q) = Cert.Gcn.reluAt (n := 5000) x0 x1 x2 x3 p q := by
  simp only [k4_pay1, shapeCast_self]
  simp only [mulf_apply, maximumf_apply, addf_apply, broadcast_apply, matmul_zero_apply,
    broadcastTo_a1_ab_apply, broadcastTo_1b_ab_apply]
  rfl

/-- The last layer's second stored block: the indicator of the first one being `≥ 1/2`, element by element. -/
theorem k4_pay2_apply (x0 : Vec Ideal S5000x128 .f32) (x1 : Vec Ideal S5000x1 .f32) (x2 : Vec Ideal S128x128 .f32)
    (x3 : Vec Ideal S1x128 .f32) (p : Fin 5000) (q : Fin 128) :
    k4_pay2 (F := Ideal) x0 x1 x2 x3 (ix2 p q)
      = Cert.Gcn.threshAt (Cert.Gcn.reluAt (n := 5000) x0 x1 x2 x3 p q) := by
  rw [← k4_pay1_apply]
  rfl

end Cert.Gcn.Ker

end
-- ==== Proof.Region0.lean ====
/-
  Region 0 of the idealized kernel as a function of whole arrays.

  The kernel tiles its `50000 × 128` output by ten blocks of 5000 rows. At grid point `t` it loads rows
  `5000·t … 5000·t + 4999` of the message array and of the two scaling columns, the whole weight matrix and bias row, and
  writes back the layer computed on those rows. Row `r` of a layer depends on row `r` of its row-indexed operands only,
  so block `t` of the whole-array layer is the layer of the blocks; the ten blocks cover every row, hence the output
  array ends holding the whole-array layer of the arrays the region found.
-/
import proofs.«176144_j76201309766160_2_alg».proof.Proof.Spec
import proofs.«176144_j76201309766160_2_alg».proof.Proof.Payload
import proofs.«176144_j76201309766160_2_alg».proof.Proof.Gen.KernelIdeal.Frame
import Idealize.ShloMosaic.Lib.Pipeline.Value
import Idealize.ShloMosaic.Lib.ValueIdx

set_option maxRecDepth 16384

noncomputable section

namespace Cert.Gcn.Region0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The index maps over the grid: the three row-indexed inputs move with the output's row block, the weight matrix and
    the bias row stay at block 0, and the output's row block is one of the ten. -/
theorem index_maps : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 9 ∧ win0_5.index t (1 : Fin 2) = 0 :=
  (by decide +kernel : ∀ t : Fin grid0.N, _)

/-- Every row block is some grid point's. -/
theorem index_onto : ∀ q0 : Fin 10, ∃ t : Fin cfg0.N, win0_5.index t = ![q0.val, 0] :=
  (by decide +kernel : ∀ q0 : Fin 10, ∃ t : Fin grid0.N, win0_5.index t = ![q0.val, 0])

/-- The layer of the arrays the region finds. -/
abbrev layer (c : Dev nD) : S50000x128.Idx → EReal :=
  Cert.Gcn.dense (n := 50000) (V c main_v37) (V c main_v14) (V c main_v11) (V c main_v15) (V c main_v19)

section Blocks
variable (c : Dev nD) (t : Fin cfg0.N) (p : Fin 5000) (r : Fin 50000)
  (hr : r.val = win0_5.index t (0 : Fin 2) * 5000 + p.val)
include hr

/-- Row `p` of the message block at point `t` is row `5000·t + p` of the message array. -/
theorem msg_block (k : Fin 128) : iblk0 V c 0 t (ix2 p k) = V c main_v37 (ix2 r k) := by
  obtain ⟨e00, e01, -⟩ := index_maps t
  show V c main_v37 (((cfg0.win 0).blk t).view.emb (ix2 p k)) = V c main_v37 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Entry `p` of the first scaling block is entry `5000·t + p` of the first scaling column. -/
theorem nd_block : iblk0 V c 1 t (ix2 p 0) = V c main_v14 (ix2 r 0) := by
  obtain ⟨-, -, e10, e11, -⟩ := index_maps t
  show V c main_v14 (((cfg0.win 1).blk t).view.emb (ix2 p 0)) = V c main_v14 (ix2 r 0)
  refine congrArg _ (funext fun a => Fin.ext ?_)
  match a with
  | ⟨0, _⟩ => show win0_1.index t (0 : Fin 2) * 5000 + 1 * p.val = r.val; omega
  | ⟨1, _⟩ => show win0_1.index t (1 : Fin 2) * 1 + 1 * 0 = 0; omega

/-- Entry `p` of the second scaling block is entry `5000·t + p` of the second scaling column. -/
theorem ns_block : iblk0 V c 2 t (ix2 p 0) = V c main_v11 (ix2 r 0) := by
  obtain ⟨-, -, -, -, e20, e21, -⟩ := index_maps t
  show V c main_v11 (((cfg0.win 2).blk t).view.emb (ix2 p 0)) = V c main_v11 (ix2 r 0)
  refine congrArg _ (funext fun a => Fin.ext ?_)
  match a with
  | ⟨0, _⟩ => show win0_2.index t (0 : Fin 2) * 5000 + 1 * p.val = r.val; omega
  | ⟨1, _⟩ => show win0_2.index t (1 : Fin 2) * 1 + 1 * 0 = 0; omega

end Blocks

/-- The weight block at any point is the whole weight matrix. -/
theorem w_block (c : Dev nD) (t : Fin cfg0.N) (k : Fin 128) (q : Fin 128) : iblk0 V c 3 t (ix2 k q) = V c main_v15 (ix2 k q) := by
  obtain ⟨-, -, -, -, -, -, e30, e31, -⟩ := index_maps t
  show V c main_v15 (((cfg0.win 3).blk t).view.emb (ix2 k q)) = V c main_v15 (ix2 k q)
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The bias block at any point is the whole bias row. -/
theorem b_block (c : Dev nD) (t : Fin cfg0.N) (q : Fin 128) : iblk0 V c 4 t (ix2 0 q) = V c main_v19 (ix2 0 q) := by
  obtain ⟨-, -, -, -, -, -, -, -, e40, e41, -⟩ := index_maps t
  show V c main_v19 (((cfg0.win 4).blk t).view.emb (ix2 0 q)) = V c main_v19 (ix2 0 q)
  refine congrArg _ (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- What point `t` writes back is block `t` of the whole-array layer. -/
theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5]
  unfold out0_5
  rw [View.canon_unit_zero off_zero]
  simp only [View.ld_unit_zero (S := S5000x128) off_zero, View.ld_unit_zero (S := S5000x1) off_zero,
    View.ld_unit_zero (S := S128x128) off_zero, View.ld_unit_zero (S := S1x128) off_zero]
  funext j
  obtain ⟨p, q, rfl⟩ : ∃ (p : Fin 5000) (q : Fin 128), j = ix2 p q := ⟨j 0, j 1, eq_ix2 j⟩
  obtain ⟨-, -, -, -, -, -, -, -, -, -, hle, e51⟩ := index_maps t
  have hrlt : win0_5.index t (0 : Fin 2) * 5000 + p.val < 50000 := by have := p.isLt; omega
  have hemb : ((cfg0.win 5).blk t).view.emb (ix2 p q) = ix2 (⟨win0_5.index t (0 : Fin 2) * 5000 + p.val, hrlt⟩ : Fin 50000) q :=
    funext fun a => Fin.ext (by
      match a with
      | ⟨0, _⟩ => show win0_5.index t (0 : Fin 2) * 5000 + 1 * p.val = win0_5.index t (0 : Fin 2) * 5000 + p.val; omega
      | ⟨1, _⟩ => show win0_5.index t (1 : Fin 2) * 128 + 1 * q.val = q.val; omega)
  show k0_pay1 (iblk0 V c 0 t) (iblk0 V c 1 t) (iblk0 V c 2 t) (iblk0 V c 3 t) (iblk0 V c 4 t) (ix2 p q)
    = layer V c (((cfg0.win 5).blk t).view.emb (ix2 p q))
  rw [hemb]
  refine (Cert.Gcn.Ker.k0_pay1_apply (iblk0 V c 0 t) (iblk0 V c 1 t) (iblk0 V c 2 t) (iblk0 V c 3 t) (iblk0 V c 4 t) p q).trans ?_
  show Cert.Gcn.denseAt _ _ _ _ _ p q = Cert.Gcn.denseAt _ _ _ _ _ (⟨win0_5.index t (0 : Fin 2) * 5000 + p.val, hrlt⟩ : Fin 50000) q
  unfold Cert.Gcn.denseAt Cert.Gcn.reluAt
  simp only [msg_block V c t p ⟨win0_5.index t (0 : Fin 2) * 5000 + p.val, hrlt⟩ rfl, nd_block V c t p ⟨win0_5.index t (0 : Fin 2) * 5000 + p.val, hrlt⟩ rfl,
    ns_block V c t p ⟨win0_5.index t (0 : Fin 2) * 5000 + p.val, hrlt⟩ rfl, w_block V c t, b_block V c t]

/-- An index of the output array is in point `t`'s block iff each coordinate is in the block's range. -/
theorem mem_block (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v38).slice (win0_5.rect t)).set ↔ _
  rw [View.set_slice_whole, Rect.mem_set_unit]
  exact Iff.rfl

/-- Row `r` lies in the block of the point whose row block is `r / 5000`: the ten blocks cover the array. -/
theorem covered (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := index_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the region is the layer of the arrays the region found. -/
theorem final (c : Dev nD) : (dat0 V c).arrAt 5 cfg0.N = layer V c :=
  (dat0 V c).arrAt_eq_of_cover 5 (layer V c) (fun t _ => flushed_eq V c t) covered

end Cert.Gcn.Region0

end
-- ==== Proof.Region1.lean ====
/-
  Region 1 of the idealized kernel as a function of whole arrays.

  The kernel tiles its `50000 × 128` output by ten blocks of 5000 rows. At grid point `t` it loads rows
  `5000·t … 5000·t + 4999` of the message array and of the two scaling columns, the whole weight matrix and bias row, and
  writes back the layer computed on those rows. Row `r` of a layer depends on row `r` of its row-indexed operands only,
  so block `t` of the whole-array layer is the layer of the blocks; the ten blocks cover every row, hence the output
  array ends holding the whole-array layer of the arrays the region found.
-/
import proofs.«176144_j76201309766160_2_alg».proof.Proof.Spec
import proofs.«176144_j76201309766160_2_alg».proof.Proof.Payload
import proofs.«176144_j76201309766160_2_alg».proof.Proof.Gen.KernelIdeal.Frame
import Idealize.ShloMosaic.Lib.Pipeline.Value
import Idealize.ShloMosaic.Lib.ValueIdx

set_option maxRecDepth 16384

noncomputable section

namespace Cert.Gcn.Region1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The index maps over the grid: the three row-indexed inputs move with the output's row block, the weight matrix and
    the bias row stay at block 0, and the output's row block is one of the ten. -/
theorem index_maps : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 9 ∧ win1_5.index t (1 : Fin 2) = 0 :=
  (by decide +kernel : ∀ t : Fin grid1.N, _)

/-- Every row block is some grid point's. -/
theorem index_onto : ∀ q0 : Fin 10, ∃ t : Fin cfg1.N, win1_5.index t = ![q0.val, 0] :=
  (by decide +kernel : ∀ q0 : Fin 10, ∃ t : Fin grid1.N, win1_5.index t = ![q0.val, 0])

/-- The layer of the arrays the region finds. -/
abbrev layer (c : Dev nD) : S50000x128.Idx → EReal :=
  Cert.Gcn.dense (n := 50000) (V c main_v49) (V c main_v14) (V c main_v11) (V c main_v16) (V c main_v20)

section Blocks
variable (c : Dev nD) (t : Fin cfg1.N) (p : Fin 5000) (r : Fin 50000)
  (hr : r.val = win1_5.index t (0 : Fin 2) * 5000 + p.val)
include hr

/-- Row `p` of the message block at point `t` is row `5000·t + p` of the message array. -/
theorem msg_block (k : Fin 128) : iblk1 V c 0 t (ix2 p k) = V c main_v49 (ix2 r k) := by
  obtain ⟨e00, e01, -⟩ := index_maps t
  show V c main_v49 (((cfg1.win 0).blk t).view.emb (ix2 p k)) = V c main_v49 (ix2 r k)
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- Entry `p` of the first scaling block is entry `5000·t + p` of the first scaling column. -/
theorem nd_block : iblk1 V c 1 t (ix2 p 0) = V c main_v14 (ix2 r 0) := by
  obtain ⟨-, -, e10, e11, -⟩ := index_maps t
  show V c main_v14 (((cfg1.win 1).blk t).view.emb (ix2 p 0)) = V c main_v14 (ix2 r 0)
  refine congrArg _ (funext fun a => Fin.ext ?_)
  match a with
  | ⟨0, _⟩ => show win1_1.index t (0 : Fin 2) * 5000 + 1 * p.val = r.val; omega
  | ⟨1, _⟩ => show win1_1.index t (1 : Fin 2) * 1 + 1 * 0 = 0; omega

/-- Entry `p` of the second scaling block is entry `5000·t + p` of the second scaling column. -/
theorem ns_block : iblk1 V c 2 t (ix2 p 0) = V c main_v11 (ix2 r 0) := by
  obtain ⟨-, -, -, -, e20, e21, -⟩ := index_maps t
  show V c main_v11 (((cfg1.win 2).blk t).view.emb (ix2 p 0)) = V c main_v11 (ix2 r 0)
  refine congrArg _ (funext fun a => Fin.ext ?_)
  match a with
  | ⟨0, _⟩ => show win1_2.index t (0 : Fin 2) * 5000 + 1 * p.val = r.val; omega
  | ⟨1, _⟩ => show win1_2.index t (1 : Fin 2) * 1 + 1 * 0 = 0; omega

end Blocks

/-- The weight block at any point is the whole weight matrix. -/
theorem w_block (c : Dev nD) (t : Fin cfg1.N) (k : Fin 128) (q : Fin 128) : iblk1 V c 3 t (ix2 k q) = V c main_v16 (ix2 k q) := by
  obtain ⟨-, -, -, -, -, -, e30, e31, -⟩ := index_maps t
  show V c main_v16 (((cfg1.win 3).blk t).view.emb (ix2 k q)) = V c main_v16 (ix2 k q)
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The bias block at any point is the whole bias row. -/
theorem b_block (c : Dev nD) (t : Fin cfg1.N) (q : Fin 128) : iblk1 V c 4 t (ix2 0 q) = V c main_v20 (ix2 0 q) := by
  obtain ⟨-, -, -, -, -, -, -, -, e40, e41, -⟩ := index_maps t
  show V c main_v20 (((cfg1.win 4).blk t).view.emb (ix2 0 q)) = V c main_v20 (ix2 0 q)
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- What point `t` writes back is block `t` of the whole-array layer. -/
theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5]
  unfold out1_5
  rw [View.canon_unit_zero off_zero]
  simp only [View.ld_unit_zero (S := S5000x128) off_zero, View.ld_unit_zero (S := S5000x1) off_zero,
    View.ld_unit_zero (S := S128x128) off_zero, View.ld_unit_zero (S := S1x128) off_zero]
  funext j
  obtain ⟨p, q, rfl⟩ : ∃ (p : Fin 5000) (q : Fin 128), j = ix2 p q := ⟨j 0, j 1, eq_ix2 j⟩
  obtain ⟨-, -, -, -, -, -, -, -, -, -, hle, e51⟩ := index_maps t
  have hrlt : win1_5.index t (0 : Fin 2) * 5000 + p.val < 50000 := by have := p.isLt; omega
  have hemb : ((cfg1.win 5).blk t).view.emb (ix2 p q) = ix2 (⟨win1_5.index t (0 : Fin 2) * 5000 + p.val, hrlt⟩ : Fin 50000) q :=
    funext fun a => Fin.ext (by
      match a with
      | ⟨0, _⟩ => show win1_5.index t (0 : Fin 2) * 5000 + 1 * p.val = win1_5.index t (0 : Fin 2) * 5000 + p.val; omega
      | ⟨1, _⟩ => show win1_5.index t (1 : Fin 2) * 128 + 1 * q.val = q.val; omega)
  show k1_pay1 (iblk1 V c 0 t) (iblk1 V c 1 t) (iblk1 V c 2 t) (iblk1 V c 3 t) (iblk1 V c 4 t) (ix2 p q)
    = layer V c (((cfg1.win 5).blk t).view.emb (ix2 p q))
  rw [hemb]
  refine (Cert.Gcn.Ker.k1_pay1_apply (iblk1 V c 0 t) (iblk1 V c 1 t) (iblk1 V c 2 t) (iblk1 V c 3 t) (iblk1 V c 4 t) p q).trans ?_
  show Cert.Gcn.denseAt _ _ _ _ _ p q = Cert.Gcn.denseAt _ _ _ _ _ (⟨win1_5.index t (0 : Fin 2) * 5000 + p.val, hrlt⟩ : Fin 50000) q
  unfold Cert.Gcn.denseAt Cert.Gcn.reluAt
  simp only [msg_block V c t p ⟨win1_5.index t (0 : Fin 2) * 5000 + p.val, hrlt⟩ rfl, nd_block V c t p ⟨win1_5.index t (0 : Fin 2) * 5000 + p.val, hrlt⟩ rfl,
    ns_block V c t p ⟨win1_5.index t (0 : Fin 2) * 5000 + p.val, hrlt⟩ rfl, w_block V c t, b_block V c t]

/-- An index of the output array is in point `t`'s block iff each coordinate is in the block's range. -/
theorem mem_block (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v50).slice (win1_5.rect t)).set ↔ _
  rw [View.set_slice_whole, Rect.mem_set_unit]
  exact Iff.rfl

/-- Row `r` lies in the block of the point whose row block is `r / 5000`: the ten blocks cover the array. -/
theorem covered (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := index_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the region is the layer of the arrays the region found. -/
theorem final (c : Dev nD) : (dat1 V c).arrAt 5 cfg1.N = layer V c :=
  (dat1 V c).arrAt_eq_of_cover 5 (layer V c) (fun t _ => flushed_eq V c t) covered

end Cert.Gcn.Region1

end
-- ==== Proof.Region2.lean ====
/-
  Region 2 of the idealized kernel as a function of whole arrays.

  The kernel tiles its `50000 × 128` output by ten blocks of 5000 rows. At grid point `t` it loads rows
  `5000·t … 5000·t + 4999` of the message array and of the two scaling columns, the whole weight matrix and bias row, and
  writes back the layer computed on those rows. Row `r` of a layer depends on row `r` of its row-indexed operands only,
  so block `t` of the whole-array layer is the layer of the blocks; the ten blocks cover every row, hence the output
  array ends holding the whole-array layer of the arrays the region found.
-/
import proofs.«176144_j76201309766160_2_alg».proof.Proof.Spec
import proofs.«176144_j76201309766160_2_alg».proof.Proof.Payload
import proofs.«176144_j76201309766160_2_alg».proof.Proof.Gen.KernelIdeal.Frame
import Idealize.ShloMosaic.Lib.Pipeline.Value
import Idealize.ShloMosaic.Lib.ValueIdx

set_option maxRecDepth 16384

noncomputable section

namespace Cert.Gcn.Region2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The index maps over the grid: the three row-indexed inputs move with the output's row block, the weight matrix and
    the bias row stay at block 0, and the output's row block is one of the ten. -/
theorem index_maps : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = win2_5.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 9 ∧ win2_5.index t (1 : Fin 2) = 0 :=
  (by decide +kernel : ∀ t : Fin grid2.N, _)

/-- Every row block is some grid point's. -/
theorem index_onto : ∀ q0 : Fin 10, ∃ t : Fin cfg2.N, win2_5.index t = ![q0.val, 0] :=
  (by decide +kernel : ∀ q0 : Fin 10, ∃ t : Fin grid2.N, win2_5.index t = ![q0.val, 0])

/-- The layer of the arrays the region finds. -/
abbrev layer (c : Dev nD) : S50000x128.Idx → EReal :=
  Cert.Gcn.dense (n := 50000) (V c main_v61) (V c main_v14) (V c main_v11) (V c main_v17) (V c main_v21)

section Blocks
variable (c : Dev nD) (t : Fin cfg2.N) (p : Fin 5000) (r : Fin 50000)
  (hr : r.val = win2_5.index t (0 : Fin 2) * 5000 + p.val)
include hr

/-- Row `p` of the message block at point `t` is row `5000·t + p` of the message array. -/
theorem msg_block (k : Fin 128) : iblk2 V c 0 t (ix2 p k) = V c main_v61 (ix2 r k) := by
  obtain ⟨e00, e01, -⟩ := index_maps t
  show V c main_v61 (((cfg2.win 0).blk t).view.emb (ix2 p k)) = V c main_v61 (ix2 r k)
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- Entry `p` of the first scaling block is entry `5000·t + p` of the first scaling column. -/
theorem nd_block : iblk2 V c 1 t (ix2 p 0) = V c main_v14 (ix2 r 0) := by
  obtain ⟨-, -, e10, e11, -⟩ := index_maps t
  show V c main_v14 (((cfg2.win 1).blk t).view.emb (ix2 p 0)) = V c main_v14 (ix2 r 0)
  refine congrArg _ (funext fun a => Fin.ext ?_)
  match a with
  | ⟨0, _⟩ => show win2_1.index t (0 : Fin 2) * 5000 + 1 * p.val = r.val; omega
  | ⟨1, _⟩ => show win2_1.index t (1 : Fin 2) * 1 + 1 * 0 = 0; omega

/-- Entry `p` of the second scaling block is entry `5000·t + p` of the second scaling column. -/
theorem ns_block : iblk2 V c 2 t (ix2 p 0) = V c main_v11 (ix2 r 0) := by
  obtain ⟨-, -, -, -, e20, e21, -⟩ := index_maps t
  show V c main_v11 (((cfg2.win 2).blk t).view.emb (ix2 p 0)) = V c main_v11 (ix2 r 0)
  refine congrArg _ (funext fun a => Fin.ext ?_)
  match a with
  | ⟨0, _⟩ => show win2_2.index t (0 : Fin 2) * 5000 + 1 * p.val = r.val; omega
  | ⟨1, _⟩ => show win2_2.index t (1 : Fin 2) * 1 + 1 * 0 = 0; omega

end Blocks

/-- The weight block at any point is the whole weight matrix. -/
theorem w_block (c : Dev nD) (t : Fin cfg2.N) (k : Fin 128) (q : Fin 128) : iblk2 V c 3 t (ix2 k q) = V c main_v17 (ix2 k q) := by
  obtain ⟨-, -, -, -, -, -, e30, e31, -⟩ := index_maps t
  show V c main_v17 (((cfg2.win 3).blk t).view.emb (ix2 k q)) = V c main_v17 (ix2 k q)
  refine congrArg _ (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-- The bias block at any point is the whole bias row. -/
theorem b_block (c : Dev nD) (t : Fin cfg2.N) (q : Fin 128) : iblk2 V c 4 t (ix2 0 q) = V c main_v21 (ix2 0 q) := by
  obtain ⟨-, -, -, -, -, -, -, -, e40, e41, -⟩ := index_maps t
  show V c main_v21 (((cfg2.win 4).blk t).view.emb (ix2 0 q)) = V c main_v21 (ix2 0 q)
  refine congrArg _ (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

/-- What point `t` writes back is block `t` of the whole-array layer. -/
theorem flushed_eq (c : Dev nD) (t : Fin cfg2.N) :
    (dat2 V c).flushed 5 t = ((cfg2.win 5).blk t).view.read (Elt Ideal) (layer V c) := by
  show (cfg2.win 5).cut (grid2.coords t) ((dat2 V c).after 5 t) = _
  rw [after2_5]
  unfold out2_5
  rw [View.canon_unit_zero off_zero]
  simp only [View.ld_unit_zero (S := S5000x128) off_zero, View.ld_unit_zero (S := S5000x1) off_zero,
    View.ld_unit_zero (S := S128x128) off_zero, View.ld_unit_zero (S := S1x128) off_zero]
  funext j
  obtain ⟨p, q, rfl⟩ : ∃ (p : Fin 5000) (q : Fin 128), j = ix2 p q := ⟨j 0, j 1, eq_ix2 j⟩
  obtain ⟨-, -, -, -, -, -, -, -, -, -, hle, e51⟩ := index_maps t
  have hrlt : win2_5.index t (0 : Fin 2) * 5000 + p.val < 50000 := by have := p.isLt; omega
  have hemb : ((cfg2.win 5).blk t).view.emb (ix2 p q) = ix2 (⟨win2_5.index t (0 : Fin 2) * 5000 + p.val, hrlt⟩ : Fin 50000) q :=
    funext fun a => Fin.ext (by
      match a with
      | ⟨0, _⟩ => show win2_5.index t (0 : Fin 2) * 5000 + 1 * p.val = win2_5.index t (0 : Fin 2) * 5000 + p.val; omega
      | ⟨1, _⟩ => show win2_5.index t (1 : Fin 2) * 128 + 1 * q.val = q.val; omega)
  show k2_pay1 (iblk2 V c 0 t) (iblk2 V c 1 t) (iblk2 V c 2 t) (iblk2 V c 3 t) (iblk2 V c 4 t) (ix2 p q)
    = layer V c (((cfg2.win 5).blk t).view.emb (ix2 p q))
  rw [hemb]
  refine (Cert.Gcn.Ker.k2_pay1_apply (iblk2 V c 0 t) (iblk2 V c 1 t) (iblk2 V c 2 t) (iblk2 V c 3 t) (iblk2 V c 4 t) p q).trans ?_
  show Cert.Gcn.denseAt _ _ _ _ _ p q = Cert.Gcn.denseAt _ _ _ _ _ (⟨win2_5.index t (0 : Fin 2) * 5000 + p.val, hrlt⟩ : Fin 50000) q
  unfold Cert.Gcn.denseAt Cert.Gcn.reluAt
  simp only [msg_block V c t p ⟨win2_5.index t (0 : Fin 2) * 5000 + p.val, hrlt⟩ rfl, nd_block V c t p ⟨win2_5.index t (0 : Fin 2) * 5000 + p.val, hrlt⟩ rfl,
    ns_block V c t p ⟨win2_5.index t (0 : Fin 2) * 5000 + p.val, hrlt⟩ rfl, w_block V c t, b_block V c t]

/-- An index of the output array is in point `t`'s block iff each coordinate is in the block's range. -/
theorem mem_block (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v62).slice (win2_5.rect t)).set ↔ _
  rw [View.set_slice_whole, Rect.mem_set_unit]
  exact Iff.rfl

/-- Row `r` lies in the block of the point whose row block is `r / 5000`: the ten blocks cover the array. -/
theorem covered (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := index_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_block]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- The output array after the region is the layer of the arrays the region found. -/
theorem final (c : Dev nD) : (dat2 V c).arrAt 5 cfg2.N = layer V c :=
  (dat2 V c).arrAt_eq_of_cover 5 (layer V c) (fun t _ => flushed_eq V c t) covered

end Cert.Gcn.Region2

end
-- ==== Proof.Region3.lean ====
/-
  Region 3 of the idealized kernel as a function of whole arrays.

  The kernel tiles its `50000 × 128` output by ten blocks of 5000 rows. At grid point `t` it loads rows
  `5000·t … 5000·t + 4999` of the message array and of the two scaling columns, the whole weight matrix and bias row, and
  writes back the layer computed on those rows. Row `r` of a layer depends on row `r` of its row-indexed operands only,
  so block `t` of the whole-array layer is the layer of the blocks; the ten blocks cover every row, hence the output
  array ends holding the whole-array layer of the arrays the region found.
-/
import proofs.«176144_j76201309766160_2_alg».proof.Proof.Spec
import proofs.«176144_j76201309766160_2_alg».proof.Proof.Payload
import proofs.«176144_j76201309766160_2_alg».proof.Proof.Gen.KernelIdeal.Frame
import Idealize.ShloMosaic.Lib.Pipeline.Value
import Idealize.ShloMosaic.Lib.ValueIdx

set_option maxRecDepth 16384

noncomputable section

namespace Cert.Gcn.Region3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The index maps over the grid: the three row-indexed inputs move with the output's row block, the weight matrix and
    the bias row stay at block 0, and the output's row block is one of the ten. -/
theorem index_maps : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = win3_5.index t (0 : Fin 2) ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) ≤ 9 ∧ win3_5.index t (1 : Fin 2) = 0 :=
  (by decide +kernel : ∀ t : Fin grid3.N, _)

/-- Every row block is some grid point's. -/
theorem index_onto : ∀ q0 : Fin 10, ∃ t : Fin cfg3.N, win3_5.index t = ![q0.val, 0] :=
  (by decide +kernel : ∀ q0 : Fin 10, ∃ t : Fin grid3.N, win3_5.index t = ![q0.val, 0])

/-- The layer of the arrays the region finds. -/
abbrev layer (c : Dev nD) : S50000x128.Idx → EReal :=
  Cert.Gcn.dense (n := 50000) (V c main_v73) (V c main_v14) (V c main_v11) (V c main_v18) (V c main_v22)

section Blocks
variable (c : Dev nD) (t : Fin cfg3.N) (p : Fin 5000) (r : Fin 50000)
  (hr : r.val = win3_5.index t (0 : Fin 2) * 5000 + p.val)
include hr

/-- Row `p` of the message block at point `t` is row `5000·t + p` of the message array. -/
theorem msg_block (k : Fin 128) : iblk3 V c 0 t (ix2 p k) = V c main_v73 (ix2 r k) := by
  obtain ⟨e00, e01, -⟩ := index_maps t
  show V c main_v73 (((cfg3.win 0).blk t).view.emb (ix2 p k)) = V c main_v73 (ix2 r k)
  refine congrArg _ (funext fun a => Fin.ext ?_)
  match a with
  | ⟨0, _⟩ => show win3_0.index t (0 : Fin 2) * 5000 + 1 * p.val = r.val; omega
  | ⟨1, _⟩ => show win3_0.index t (1 : Fin 2) * 128 + 1 * k.val = k.val; omega

/-- Entry `p` of the first scaling block is entry `5000·t + p` of the first scaling column. -/
theorem nd_block : iblk3 V c 1 t (ix2 p 0) = V c main_v14 (ix2 r 0) := by
  obtain ⟨-, -, e10, e11, -⟩ := index_maps t
  show V c main_v14 (((cfg3.win 1).blk t).view.emb (ix2 p 0)) = V c main_v14 (ix2 r 0)
  refine congrArg _ (funext fun a => Fin.ext ?_)
  match a with
  | ⟨0, _⟩ => show win3_1.index t (0 : Fin 2) * 5000 + 1 * p.val = r.val; omega
  | ⟨1, _⟩ => show win3_1.index t (1 : Fin 2) * 1 + 1 * 0 = 0; omega

/-- Entry `p` of the second scaling block is entry `5000·t + p` of the second scaling column. -/
theorem ns_block : iblk3 V c 2 t (ix2 p 0) = V c main_v11 (ix2 r 0) := by
  obtain ⟨-, -, -, -, e20, e21, -⟩ := index_maps t
  show V c main_v11 (((cfg3.win 2).blk t).view.emb (ix2 p 0)) = V c main_v11 (ix2 r 0)
  refine congrArg _ (funext fun a => Fin.ext ?_)
  match a with
  | ⟨0, _⟩ => show win3_2.index t (0 : Fin 2) * 5000 + 1 * p.val = r.val; omega
  | ⟨1, _⟩ => show win3_2.index t (1 : Fin 2) * 1 + 1 * 0 = 0; omega

end Blocks

/-- The weight block at any point is the whole weight matrix. -/
theorem w_block (c : Dev nD) (t : Fin cfg3.N) (k : Fin 128) (q : Fin 128) : iblk3 V c 3 t (ix2 k q) = V c main_v18 (ix2 k q) := by
  obtain ⟨-, -, -, -, -, -, e30, e31, -⟩ := index_maps t
  show V c main_v18 (((cfg3.win 3).blk t).view.emb (ix2 k q)) = V c main_v18 (ix2 k q)
  refine congrArg _ (funext fun a => Fin.ext ?_)
  match a with
  | ⟨0, _⟩ => show win3_3.index t (0 : Fin 2) * 128 + 1 * k.val = k.val; omega
  | ⟨1, _⟩ => show win3_3.index t (1 : Fin 2) * 128 + 1 * q.val = q.val; omega

/-- The bias block at any point is the whole bias row. -/
theorem b_block (c : Dev nD) (t : Fin cfg3.N) (q : Fin 128) : iblk3 V c 4 t (ix2 0 q) = V c main_v22 (ix2 0 q) := by
  obtain ⟨-, -, -, -, -, -, -, -, e40, e41, -⟩ := index_maps t
  show V c main_v22 (((cfg3.win 4).blk t).view.emb (ix2 0 q)) = V c main_v22 (ix2 0 q)
  refine congrArg _ (funext fun a => Fin.ext ?_)
  match a with
  | ⟨0, _⟩ => show win3_4.index t (0 : Fin 2) * 1 + 1 * 0 = 0; omega
  | ⟨1, _⟩ => show win3_4.index t (1 : Fin 2) * 128 + 1 * q.val = q.val; omega

/-- What point `t` writes back is block `t` of the whole-array layer. -/
theorem flushed_eq (c : Dev nD) (t : Fin cfg3.N) :
    (dat3 V c).flushed 5 t = ((cfg3.win 5).blk t).view.read (Elt Ideal) (layer V c) := by
  show (cfg3.win 5).cut (grid3.coords t) ((dat3 V c).after 5 t) = _
  rw [after3_5]
  unfold out3_5
  rw [View.canon_unit_zero off_zero]
  simp only [View.ld_unit_zero (S := S5000x128) off_zero, View.ld_unit_zero (S := S5000x1) off_zero,
    View.ld_unit_zero (S := S128x128) off_zero, View.ld_unit_zero (S := S1x128) off_zero]
  funext j
  obtain ⟨p, q, rfl⟩ : ∃ (p : Fin 5000) (q : Fin 128), j = ix2 p q := ⟨j 0, j 1, eq_ix2 j⟩
  obtain ⟨-, -, -, -, -, -, -, -, -, -, hle, e51⟩ := index_maps t
  have hrlt : win3_5.index t (0 : Fin 2) * 5000 + p.val < 50000 := by have := p.isLt; omega
  have hemb : ((cfg3.win 5).blk t).view.emb (ix2 p q) = ix2 (⟨win3_5.index t (0 : Fin 2) * 5000 + p.val, hrlt⟩ : Fin 50000) q :=
    funext fun a => Fin.ext (by
      match a with
      | ⟨0, _⟩ => show win3_5.index t (0 : Fin 2) * 5000 + 1 * p.val = win3_5.index t (0 : Fin 2) * 5000 + p.val; omega
      | ⟨1, _⟩ => show win3_5.index t (1 : Fin 2) * 128 + 1 * q.val = q.val; omega)
  show k3_pay1 (iblk3 V c 0 t) (iblk3 V c 1 t) (iblk3 V c 2 t) (iblk3 V c 3 t) (iblk3 V c 4 t) (ix2 p q)
    = layer V c (((cfg3.win 5).blk t).view.emb (ix2 p q))
  rw [hemb]
  refine (Cert.Gcn.Ker.k3_pay1_apply (iblk3 V c 0 t) (iblk3 V c 1 t) (iblk3 V c 2 t) (iblk3 V c 3 t) (iblk3 V c 4 t) p q).trans ?_
  show Cert.Gcn.denseAt _ _ _ _ _ p q = Cert.Gcn.denseAt _ _ _ _ _ (⟨win3_5.index t (0 : Fin 2) * 5000 + p.val, hrlt⟩ : Fin 50000) q
  unfold Cert.Gcn.denseAt Cert.Gcn.reluAt
  simp only [msg_block V c t p ⟨win3_5.index t (0 : Fin 2) * 5000 + p.val, hrlt⟩ rfl, nd_block V c t p ⟨win3_5.index t (0 : Fin 2) * 5000 + p.val, hrlt⟩ rfl,
    ns_block V c t p ⟨win3_5.index t (0 : Fin 2) * 5000 + p.val, hrlt⟩ rfl, w_block V c t, b_block V c t]

/-- An index of the output array is in point `t`'s block iff each coordinate is in the block's range. -/
theorem mem_block (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v74).slice (win3_5.rect t)).set ↔ _
  rw [View.set_slice_whole, Rect.mem_set_unit]
  exact Iff.rfl

/-- Row `r` lies in the block of the point whose row block is `r / 5000`: the ten blocks cover the array. -/
theorem covered (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ := index_onto ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_block]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- The output array after the region is the layer of the arrays the region found. -/
theorem final (c : Dev nD) : (dat3 V c).arrAt 5 cfg3.N = layer V c :=
  (dat3 V c).arrAt_eq_of_cover 5 (layer V c) (fun t _ => flushed_eq V c t) covered

end Cert.Gcn.Region3

end
-- ==== Proof.Region4.lean ====
/-
  The last region of the idealized kernel as functions of whole arrays.

  As in the earlier regions the kernel tiles its two `50000 × 128` outputs by ten blocks of 5000 rows; at grid point
  `t` it loads rows `5000·t … 5000·t + 4999` of the message array and of the destination scaling, the whole weight matrix
  and bias row, and writes back the last layer on those rows and, beside it, the indicator of `h ≥ 1/2`. Both are
  computed row by row, so each block written back is a block of the whole-array function, and the ten blocks cover every row.
-/
import proofs.«176144_j76201309766160_2_alg».proof.Proof.Spec
import proofs.«176144_j76201309766160_2_alg».proof.Proof.Payload
import proofs.«176144_j76201309766160_2_alg».proof.Proof.Gen.KernelIdeal.Frame
import Idealize.ShloMosaic.Lib.Pipeline.Value
import Idealize.ShloMosaic.Lib.ValueIdx

set_option maxRecDepth 16384

noncomputable section

namespace Cert.Gcn.Region4

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The index maps over the grid: the two row-indexed inputs move with the outputs' row block, the weight matrix and the
    bias row stay at block 0, the two outputs move together, and the row block is one of the ten. -/
theorem index_maps : ∀ t : Fin cfg4.N,
    win4_0.index t (0 : Fin 2) = win4_4.index t (0 : Fin 2) ∧ win4_0.index t (1 : Fin 2) = 0
    ∧ win4_1.index t (0 : Fin 2) = win4_4.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) ≤ 9 ∧ win4_4.index t (1 : Fin 2) = 0
    ∧ win4_5.index t (0 : Fin 2) = win4_4.index t (0 : Fin 2) ∧ win4_5.index t (1 : Fin 2) = 0 :=
  (by decide +kernel : ∀ t : Fin grid4.N, _)

/-- Every row block is some grid point's. -/
theorem index_onto : ∀ q0 : Fin 10, ∃ t : Fin cfg4.N, win4_4.index t = ![q0.val, 0] :=
  (by decide +kernel : ∀ q0 : Fin 10, ∃ t : Fin grid4.N, win4_4.index t = ![q0.val, 0])

/-- The last layer of the arrays the region finds. -/
abbrev layerH (c : Dev nD) : S50000x128.Idx → EReal :=
  Cert.Gcn.denseLast (n := 50000) (V c main_v85) (V c main_v14) (V c main_arg7) (V c main_v23)

/-- Its indicator of `h ≥ 1/2`. -/
abbrev layerC (c : Dev nD) : S50000x128.Idx → EReal := Cert.Gcn.thresh (n := 50000) (layerH V c)

section Blocks
variable (c : Dev nD) (t : Fin cfg4.N) (p : Fin 5000) (r : Fin 50000)
  (hr : r.val = win4_4.index t (0 : Fin 2) * 5000 + p.val)
include hr

/-- Row `p` of the message block at point `t` is row `5000·t + p` of the message array. -/
theorem msg_block (k : Fin 128) : iblk4 V c 0 t (ix2 p k) = V c main_v85 (ix2 r k) := by
  obtain ⟨e00, e01, -⟩ := index_maps t
  show V c main_v85 (((cfg4.win 0).blk t).view.emb (ix2 p k)) = V c main_v85 (ix2 r k)
  refine congrArg _ (funext fun a => Fin.ext ?_)
  match a with
  | ⟨0, _⟩ => show win4_0.index t (0 : Fin 2) * 5000 + 1 * p.val = r.val; omega
  | ⟨1, _⟩ => show win4_0.index t (1 : Fin 2) * 128 + 1 * k.val = k.val; omega

/-- Entry `p` of the scaling block is entry `5000·t + p` of the scaling column. -/
theorem nd_block : iblk4 V c 1 t (ix2 p 0) = V c main_v14 (ix2 r 0) := by
  obtain ⟨-, -, e10, e11, -⟩ := index_maps t
  show V c main_v14 (((cfg4.win 1).blk t).view.emb (ix2 p 0)) = V c main_v14 (ix2 r 0)
  refine congrArg _ (funext fun a => Fin.ext ?_)
  match a with
  | ⟨0, _⟩ => show win4_1.index t (0 : Fin 2) * 5000 + 1 * p.val = r.val; omega
  | ⟨1, _⟩ => show win4_1.index t (1 : Fin 2) * 1 + 1 * 0 = 0; omega

end Blocks

/-- The weight block at any point is the whole weight matrix. -/
theorem w_block (c : Dev nD) (t : Fin cfg4.N) (k : Fin 128) (q : Fin 128) : iblk4 V c 2 t (ix2 k q) = V c main_arg7 (ix2 k q) := by
  obtain ⟨-, -, -, -, e20, e21, -⟩ := index_maps t
  show V c main_arg7 (((cfg4.win 2).blk t).view.emb (ix2 k q)) = V c main_arg7 (ix2 k q)
  refine congrArg _ (funext fun a => Fin.ext ?_)
  match a with
  | ⟨0, _⟩ => show win4_2.index t (0 : Fin 2) * 128 + 1 * k.val = k.val; omega
  | ⟨1, _⟩ => show win4_2.index t (1 : Fin 2) * 128 + 1 * q.val = q.val; omega

/-- The bias block at any point is the whole bias row. -/
theorem b_block (c : Dev nD) (t : Fin cfg4.N) (q : Fin 128) : iblk4 V c 3 t (ix2 0 q) = V c main_v23 (ix2 0 q) := by
  obtain ⟨-, -, -, -, -, -, e30, e31, -⟩ := index_maps t
  show V c main_v23 (((cfg4.win 3).blk t).view.emb (ix2 0 q)) = V c main_v23 (ix2 0 q)
  refine congrArg _ (funext fun a => Fin.ext ?_)
  match a with
  | ⟨0, _⟩ => show win4_3.index t (0 : Fin 2) * 1 + 1 * 0 = 0; omega
  | ⟨1, _⟩ => show win4_3.index t (1 : Fin 2) * 128 + 1 * q.val = q.val; omega

/-- What point `t` writes back through output window 4 is block `t` of the whole-array function. -/
theorem flushed_eq4 (c : Dev nD) (t : Fin cfg4.N) :
    (dat4 V c).flushed 4 t = ((cfg4.win 4).blk t).view.read (Elt Ideal) (layerH V c) := by
  show (cfg4.win 4).cut (grid4.coords t) ((dat4 V c).after 4 t) = _
  rw [after4_4]
  unfold out4_4
  rw [View.canon_unit_zero off_zero]
  simp only [View.ld_unit_zero (S := S5000x128) off_zero, View.ld_unit_zero (S := S5000x1) off_zero,
    View.ld_unit_zero (S := S128x128) off_zero, View.ld_unit_zero (S := S1x128) off_zero]
  funext j
  obtain ⟨p, q, rfl⟩ : ∃ (p : Fin 5000) (q : Fin 128), j = ix2 p q := ⟨j 0, j 1, eq_ix2 j⟩
  obtain ⟨-, -, -, -, -, -, -, -, hle, e41, e50, e51⟩ := index_maps t
  have hrlt : win4_4.index t (0 : Fin 2) * 5000 + p.val < 50000 := by have := p.isLt; omega
  have hemb : ((cfg4.win 4).blk t).view.emb (ix2 p q) = ix2 (⟨win4_4.index t (0 : Fin 2) * 5000 + p.val, hrlt⟩ : Fin 50000) q :=
    funext fun a => Fin.ext (by
      match a with
      | ⟨0, _⟩ => show win4_4.index t (0 : Fin 2) * 5000 + 1 * p.val = win4_4.index t (0 : Fin 2) * 5000 + p.val; omega
      | ⟨1, _⟩ => show win4_4.index t (1 : Fin 2) * 128 + 1 * q.val = q.val; omega)
  show k4_pay1 (iblk4 V c 0 t) (iblk4 V c 1 t) (iblk4 V c 2 t) (iblk4 V c 3 t) (ix2 p q)
    = layerH V c (((cfg4.win 4).blk t).view.emb (ix2 p q))
  rw [hemb]
  refine (Cert.Gcn.Ker.k4_pay1_apply (iblk4 V c 0 t) (iblk4 V c 1 t) (iblk4 V c 2 t) (iblk4 V c 3 t) p q).trans ?_
  show Cert.Gcn.reluAt _ _ _ _ p q = Cert.Gcn.reluAt _ _ _ _ (⟨win4_4.index t (0 : Fin 2) * 5000 + p.val, hrlt⟩ : Fin 50000) q
  unfold Cert.Gcn.reluAt
  simp only [msg_block V c t p ⟨win4_4.index t (0 : Fin 2) * 5000 + p.val, hrlt⟩ rfl, nd_block V c t p ⟨win4_4.index t (0 : Fin 2) * 5000 + p.val, hrlt⟩ rfl,
    w_block V c t, b_block V c t]

/-- An index of output array 4 is in point `t`'s block iff each coordinate is in the block's range. -/
theorem mem_block4 (t : Fin cfg4.N) (i : S50000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v86_0).slice (win4_4.rect t)).set ↔ _
  rw [View.set_slice_whole, Rect.mem_set_unit]
  exact Iff.rfl

/-- The ten blocks of output window 4 cover the array. -/
theorem covered4 (i : S50000x128.Idx) : ∃ t : Fin cfg4.N, (cfg4.win 4).flush t = true ∧ i ∈ ((cfg4.win 4).blk t).view.set := by
  have hi0 : (i 0).val < 50000 := (i 0).isLt
  have hi1 : (i 1).val < 128 := (i 1).isLt
  obtain ⟨t, ht⟩ := index_onto ⟨(i 0).val / 5000, by omega⟩
  obtain ⟨-, -, -, -, -, -, -, -, hle, e41, e50, e51⟩ := index_maps t
  have q0 : win4_4.index t (0 : Fin 2) = (i 0).val / 5000 := congrFun ht 0
  refine ⟨t, flush4_4 t, ?_⟩
  rw [mem_block4]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 128 ≤ (i 1).val ∧ (i 1).val < win4_4.index t (1 : Fin 2) * 128 + 128; omega

/-- Output array 4 after the region. -/
theorem final4 (c : Dev nD) : (dat4 V c).arrAt 4 cfg4.N = layerH V c :=
  (dat4 V c).arrAt_eq_of_cover 4 (layerH V c) (fun t _ => flushed_eq4 V c t) covered4

/-- What point `t` writes back through output window 5 is block `t` of the whole-array function. -/
theorem flushed_eq5 (c : Dev nD) (t : Fin cfg4.N) :
    (dat4 V c).flushed 5 t = ((cfg4.win 5).blk t).view.read (Elt Ideal) (layerC V c) := by
  show (cfg4.win 5).cut (grid4.coords t) ((dat4 V c).after 5 t) = _
  rw [after4_5]
  unfold out4_5
  rw [View.canon_unit_zero off_zero]
  simp only [View.ld_unit_zero (S := S5000x128) off_zero, View.ld_unit_zero (S := S5000x1) off_zero,
    View.ld_unit_zero (S := S128x128) off_zero, View.ld_unit_zero (S := S1x128) off_zero]
  funext j
  obtain ⟨p, q, rfl⟩ : ∃ (p : Fin 5000) (q : Fin 128), j = ix2 p q := ⟨j 0, j 1, eq_ix2 j⟩
  obtain ⟨-, -, -, -, -, -, -, -, hle, e41, e50, e51⟩ := index_maps t
  have hrlt : win4_4.index t (0 : Fin 2) * 5000 + p.val < 50000 := by have := p.isLt; omega
  have hemb : ((cfg4.win 5).blk t).view.emb (ix2 p q) = ix2 (⟨win4_4.index t (0 : Fin 2) * 5000 + p.val, hrlt⟩ : Fin 50000) q :=
    funext fun a => Fin.ext (by
      match a with
      | ⟨0, _⟩ => show win4_5.index t (0 : Fin 2) * 5000 + 1 * p.val = win4_4.index t (0 : Fin 2) * 5000 + p.val; omega
      | ⟨1, _⟩ => show win4_5.index t (1 : Fin 2) * 128 + 1 * q.val = q.val; omega)
  show k4_pay2 (iblk4 V c 0 t) (iblk4 V c 1 t) (iblk4 V c 2 t) (iblk4 V c 3 t) (ix2 p q)
    = layerC V c (((cfg4.win 5).blk t).view.emb (ix2 p q))
  rw [hemb]
  refine (Cert.Gcn.Ker.k4_pay2_apply (iblk4 V c 0 t) (iblk4 V c 1 t) (iblk4 V c 2 t) (iblk4 V c 3 t) p q).trans ?_
  show Cert.Gcn.threshAt (Cert.Gcn.reluAt _ _ _ _ p q) = Cert.Gcn.threshAt (Cert.Gcn.reluAt _ _ _ _ (⟨win4_4.index t (0 : Fin 2) * 5000 + p.val, hrlt⟩ : Fin 50000) q)
  unfold Cert.Gcn.reluAt
  simp only [msg_block V c t p ⟨win4_4.index t (0 : Fin 2) * 5000 + p.val, hrlt⟩ rfl, nd_block V c t p ⟨win4_4.index t (0 : Fin 2) * 5000 + p.val, hrlt⟩ rfl,
    w_block V c t, b_block V c t]

/-- An index of output array 5 is in point `t`'s block iff each coordinate is in the block's range. -/
theorem mem_block5 (t : Fin cfg4.N) (i : S50000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v86_1).slice (win4_5.rect t)).set ↔ _
  rw [View.set_slice_whole, Rect.mem_set_unit]
  exact Iff.rfl

/-- The ten blocks of output window 5 cover the array. -/
theorem covered5 (i : S50000x128.Idx) : ∃ t : Fin cfg4.N, (cfg4.win 5).flush t = true ∧ i ∈ ((cfg4.win 5).blk t).view.set := by
  have hi0 : (i 0).val < 50000 := (i 0).isLt
  have hi1 : (i 1).val < 128 := (i 1).isLt
  obtain ⟨t, ht⟩ := index_onto ⟨(i 0).val / 5000, by omega⟩
  obtain ⟨-, -, -, -, -, -, -, -, hle, e41, e50, e51⟩ := index_maps t
  have q0 : win4_4.index t (0 : Fin 2) = (i 0).val / 5000 := congrFun ht 0
  refine ⟨t, flush4_5 t, ?_⟩
  rw [mem_block5]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-- Output array 5 after the region. -/
theorem final5 (c : Dev nD) : (dat4 V c).arrAt 5 cfg4.N = layerC V c :=
  (dat4 V c).arrAt_eq_of_cover 5 (layerC V c) (fun t _ => flushed_eq5 V c t) covered5

end Cert.Gcn.Region4

end
-- ==== Proof.RunResults.lean ====
/-
  The idealized kernel's run with its two result arrays named.

  @main is five host stretches, each followed by one tiled matrix kernel. Along the run the buffer contents at every
  boundary are a fold from the launch memory: a host stretch applies its operations, a kernel leaves its output array at
  what its grid points wrote back and every other buffer as it was. Every weakly fair execution terminates with each
  buffer at the last boundary's contents; read at the two result buffers this names the results, and read at the
  argument buffers it gives back the launch contents.
-/
import proofs.«176144_j76201309766160_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result buffers at the last
    boundary's contents and the argument arrays as launched. -/
theorem run_results : θ_run defs (onTc (τ := τ) (main (F := F))) ⟨m, fun _ => 0, ρ⟩ (fun r => ∀ c : Dev nD,
      r.2.mem ((c.tc : Thread nD τ).loc main_v86_0) = W14 m ρ c (Proc.devRef .tc main_v86_0)
      ∧ r.2.mem ((c.tc : Thread nD τ).loc main_v86_1) = W14 m ρ c (Proc.devRef .tc main_v86_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v86_0 (by decide)),
       h c _ (mem_uc main_v86_1 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c)⟩)

end Cert.KernelIdeal.RunValue

end
-- ==== Proof.KernelValue.lean ====
/-
  The idealized kernel's two results as functions of its thirteen argument arrays.

  Write `agg` for the aggregation over the edges, `ns`, `nd` for the source and destination degree scalings. The kernel computes

      X₁ = agg (x · ns),          H₁ = layer X₁ nd ns W₁ b₁,
      Xⱼ₊₁ = agg Hⱼ,              Hⱼ₊₁ = layer Xⱼ₊₁ nd ns Wⱼ₊₁ bⱼ₊₁      (j = 1, 2, 3),
      X₅ = agg H₄,                H₅ = lastLayer X₅ nd W₅ b₅,     C₅ = [H₅ ≥ 1/2],

  where `layer` already carries the trailing scaling by `ns` that the next aggregation needs. Each region's output array is
  the corresponding `Hⱼ`: the region's whole-array form at the contents it finds, and those contents read back through
  the boundaries to the launch arrays.
-/
import proofs.«176144_j76201309766160_2_alg».proof.Proof.Spec
import proofs.«176144_j76201309766160_2_alg».proof.Proof.Boundary
import proofs.«176144_j76201309766160_2_alg».proof.Proof.Region0
import proofs.«176144_j76201309766160_2_alg».proof.Proof.Region1
import proofs.«176144_j76201309766160_2_alg».proof.Proof.Region2
import proofs.«176144_j76201309766160_2_alg».proof.Proof.Region3
import proofs.«176144_j76201309766160_2_alg».proof.Proof.Region4
import proofs.«176144_j76201309766160_2_alg».proof.Proof.RunResults

set_option maxRecDepth 16384

noncomputable section

namespace Cert.Gcn.KValue

open Cert.KernelIdeal Cert.KernelIdeal.Gen Cert.KernelIdeal.Boundary
open Idealize.ShloMosaic Idealize.ShloMosaic.TcCoe Idealize.SL.Sem

/-- The thirteen argument arrays: node features, edge sources and destinations, five weight matrices, five bias vectors. -/
structure Args where
  x : (⟨S50000x128, .f32⟩ : BufTy).Contents (Elt Ideal)
  src : (⟨S800000, .i32⟩ : BufTy).Contents (Elt Ideal)
  dst : (⟨S800000, .i32⟩ : BufTy).Contents (Elt Ideal)
  w1 : (⟨S128x128, .f32⟩ : BufTy).Contents (Elt Ideal)
  w2 : (⟨S128x128, .f32⟩ : BufTy).Contents (Elt Ideal)
  w3 : (⟨S128x128, .f32⟩ : BufTy).Contents (Elt Ideal)
  w4 : (⟨S128x128, .f32⟩ : BufTy).Contents (Elt Ideal)
  w5 : (⟨S128x128, .f32⟩ : BufTy).Contents (Elt Ideal)
  b1 : (⟨S128, .f32⟩ : BufTy).Contents (Elt Ideal)
  b2 : (⟨S128, .f32⟩ : BufTy).Contents (Elt Ideal)
  b3 : (⟨S128, .f32⟩ : BufTy).Contents (Elt Ideal)
  b4 : (⟨S128, .f32⟩ : BufTy).Contents (Elt Ideal)
  b5 : (⟨S128, .f32⟩ : BufTy).Contents (Elt Ideal)

/-- The argument arrays as launched. -/
def launch (m : (ℓ : Loc nD τ sig) → Buf (Elt Ideal) ℓ) (c : Dev nD) : Args where
  x := m ((c : Thread nD τ).loc main_arg0)
  src := m ((c : Thread nD τ).loc main_arg1)
  dst := m ((c : Thread nD τ).loc main_arg2)
  w1 := m ((c : Thread nD τ).loc main_arg3)
  w2 := m ((c : Thread nD τ).loc main_arg4)
  w3 := m ((c : Thread nD τ).loc main_arg5)
  w4 := m ((c : Thread nD τ).loc main_arg6)
  w5 := m ((c : Thread nD τ).loc main_arg7)
  b1 := m ((c : Thread nD τ).loc main_arg8)
  b2 := m ((c : Thread nD τ).loc main_arg9)
  b3 := m ((c : Thread nD τ).loc main_arg10)
  b4 := m ((c : Thread nD τ).loc main_arg11)
  b5 := m ((c : Thread nD τ).loc main_arg12)

/-- A weight matrix as the non-final kernels read it (a change of float format: the identity here). -/
abbrev wt (w : (⟨S128x128, .f32⟩ : BufTy).Contents (Elt Ideal)) : (⟨S128x128, .bf16⟩ : BufTy).Contents (Elt Ideal) :=
  truncf (F := Ideal) .bf16 w bitsLt_bf16_f32

/-- A bias vector as a `1 × 128` row. -/
abbrev row (b : (⟨S128, .f32⟩ : BufTy).Contents (Elt Ideal)) : (⟨S1x128, .f32⟩ : BufTy).Contents (Elt Ideal) :=
  shapeCast S1x128 b shapeCasts_S128_S1x128

variable (A : Args)

def ns : (⟨S50000x1, .f32⟩ : BufTy).Contents (Elt Ideal) := scaleCol A.src
def nd : (⟨S50000x1, .f32⟩ : BufTy).Contents (Elt Ideal) := scaleCol A.dst
def X1 : (⟨S50000x128, .f32⟩ : BufTy).Contents (Elt Ideal) := agg A.src A.dst (scaledInput A.x A.src)
def H1 : (⟨S50000x128, .bf16⟩ : BufTy).Contents (Elt Ideal) := Cert.Gcn.dense (n := 50000) (X1 A) (nd A) (ns A) (wt A.w1) (row A.b1)
def X2 : (⟨S50000x128, .f32⟩ : BufTy).Contents (Elt Ideal) := agg A.src A.dst (H1 A)
def H2 : (⟨S50000x128, .bf16⟩ : BufTy).Contents (Elt Ideal) := Cert.Gcn.dense (n := 50000) (X2 A) (nd A) (ns A) (wt A.w2) (row A.b2)
def X3 : (⟨S50000x128, .f32⟩ : BufTy).Contents (Elt Ideal) := agg A.src A.dst (H2 A)
def H3 : (⟨S50000x128, .bf16⟩ : BufTy).Contents (Elt Ideal) := Cert.Gcn.dense (n := 50000) (X3 A) (nd A) (ns A) (wt A.w3) (row A.b3)
def X4 : (⟨S50000x128, .f32⟩ : BufTy).Contents (Elt Ideal) := agg A.src A.dst (H3 A)
def H4 : (⟨S50000x128, .bf16⟩ : BufTy).Contents (Elt Ideal) := Cert.Gcn.dense (n := 50000) (X4 A) (nd A) (ns A) (wt A.w4) (row A.b4)
def X5 : (⟨S50000x128, .f32⟩ : BufTy).Contents (Elt Ideal) := agg A.src A.dst (H4 A)
def H5 : (⟨S50000x128, .f32⟩ : BufTy).Contents (Elt Ideal) := Cert.Gcn.denseLast (n := 50000) (X5 A) (nd A) A.w5 (row A.b5)
def C5 : (⟨S50000x128, .f32⟩ : BufTy).Contents (Elt Ideal) := Cert.Gcn.thresh (n := 50000) (H5 A)

variable (m : (ℓ : Loc nD τ sig) → Buf (Elt Ideal) ℓ) (ρ : Dev nD → PrngReg) (c : Dev nD)

/-- The first region's output is the first layer. -/
theorem out0 : W6 m ρ c (Proc.devRef .tc main_v38) = H1 (launch m c) := by
  refine (W6_arr m ρ c 5).trans ((Cert.Gcn.Region0.final (V5 m ρ) c).trans ?_)
  show Cert.Gcn.dense (n := 50000) (W5 m ρ c (Proc.devRef .tc main_v37)) (W5 m ρ c (Proc.devRef .tc main_v14)) (W5 m ρ c (Proc.devRef .tc main_v11))
    (W5 m ρ c (Proc.devRef .tc main_v15)) (W5 m ρ c (Proc.devRef .tc main_v19)) = _
  rw [entry0_msg, entry0_nd, entry0_ns, entry0_main_v15, entry0_main_v19]
  rfl

theorem in1 : W7 m ρ c (Proc.devRef .tc main_v49) = X2 (launch m c) := by
  rw [entry1_msg, out0]; rfl

/-- The second region's output is the second layer. -/
theorem out1 : W8 m ρ c (Proc.devRef .tc main_v50) = H2 (launch m c) := by
  refine (W8_arr m ρ c 5).trans ((Cert.Gcn.Region1.final (V7 m ρ) c).trans ?_)
  show Cert.Gcn.dense (n := 50000) (W7 m ρ c (Proc.devRef .tc main_v49)) (W7 m ρ c (Proc.devRef .tc main_v14)) (W7 m ρ c (Proc.devRef .tc main_v11))
    (W7 m ρ c (Proc.devRef .tc main_v16)) (W7 m ρ c (Proc.devRef .tc main_v20)) = _
  rw [in1, keep7_main_v14, keep7_main_v11, keep7_main_v16, keep7_main_v20, entry0_nd, entry0_ns, entry0_main_v16, entry0_main_v20]
  rfl

theorem in2 : W9 m ρ c (Proc.devRef .tc main_v61) = X3 (launch m c) := by
  rw [entry2_msg, out1]; rfl

/-- The third region's output is the third layer. -/
theorem out2 : W10 m ρ c (Proc.devRef .tc main_v62) = H3 (launch m c) := by
  refine (W10_arr m ρ c 5).trans ((Cert.Gcn.Region2.final (V9 m ρ) c).trans ?_)
  show Cert.Gcn.dense (n := 50000) (W9 m ρ c (Proc.devRef .tc main_v61)) (W9 m ρ c (Proc.devRef .tc main_v14)) (W9 m ρ c (Proc.devRef .tc main_v11))
    (W9 m ρ c (Proc.devRef .tc main_v17)) (W9 m ρ c (Proc.devRef .tc main_v21)) = _
  rw [in2, keep9_main_v14, keep9_main_v11, keep9_main_v17, keep9_main_v21, entry0_nd, entry0_ns, entry0_main_v17, entry0_main_v21]
  rfl

theorem in3 : W11 m ρ c (Proc.devRef .tc main_v73) = X4 (launch m c) := by
  rw [entry3_msg, out2]; rfl

/-- The fourth region's output is the fourth layer. -/
theorem out3 : W12 m ρ c (Proc.devRef .tc main_v74) = H4 (launch m c) := by
  refine (W12_arr m ρ c 5).trans ((Cert.Gcn.Region3.final (V11 m ρ) c).trans ?_)
  show Cert.Gcn.dense (n := 50000) (W11 m ρ c (Proc.devRef .tc main_v73)) (W11 m ρ c (Proc.devRef .tc main_v14)) (W11 m ρ c (Proc.devRef .tc main_v11))
    (W11 m ρ c (Proc.devRef .tc main_v18)) (W11 m ρ c (Proc.devRef .tc main_v22)) = _
  rw [in3, keep11_main_v14, keep11_main_v11, keep11_main_v18, keep11_main_v22, entry0_nd, entry0_ns, entry0_main_v18, entry0_main_v22]
  rfl

theorem in4 : W13 m ρ c (Proc.devRef .tc main_v85) = X5 (launch m c) := by
  rw [entry4_msg, out3]; rfl

/-- The last region's first output is the last layer. -/
theorem out4_h : W14 m ρ c (Proc.devRef .tc main_v86_0) = H5 (launch m c) := by
  refine (W14_arr m ρ c 4).trans ((Cert.Gcn.Region4.final4 (V13 m ρ) c).trans ?_)
  show Cert.Gcn.denseLast (n := 50000) (W13 m ρ c (Proc.devRef .tc main_v85)) (W13 m ρ c (Proc.devRef .tc main_v14))
    (W13 m ρ c (Proc.devRef .tc main_arg7)) (W13 m ρ c (Proc.devRef .tc main_v23)) = _
  rw [in4, keep13_main_v14, arg13_main_arg7, keep13_main_v23, entry0_nd, entry0_main_v23]
  rfl

/-- The last region's second output is the indicator of the last layer being at least 1/2. -/
theorem out4_c : W14 m ρ c (Proc.devRef .tc main_v86_1) = C5 (launch m c) := by
  refine (W14_arr m ρ c 5).trans ((Cert.Gcn.Region4.final5 (V13 m ρ) c).trans ?_)
  show Cert.Gcn.thresh (n := 50000) (Cert.Gcn.denseLast (n := 50000) (W13 m ρ c (Proc.devRef .tc main_v85)) (W13 m ρ c (Proc.devRef .tc main_v14))
    (W13 m ρ c (Proc.devRef .tc main_arg7)) (W13 m ρ c (Proc.devRef .tc main_v23))) = _
  rw [in4, keep13_main_v14, arg13_main_arg7, keep13_main_v23, entry0_nd, entry0_main_v23]
  rfl

/-- Every weakly fair execution of the idealized kernel terminates with its two results at `H₅` and `C₅` of the launch
    arrays, the arguments unchanged. -/
theorem run : θ_run (Cert.KernelIdeal.defs (F := Ideal)) (onTc (τ := τ) (main (F := Ideal))) ⟨m, fun _ => 0, ρ⟩ (fun r => ∀ c : Dev nD,
      r.2.mem ((c.tc : Thread nD τ).loc main_v86_0) = H5 (launch m c)
      ∧ r.2.mem ((c.tc : Thread nD τ).loc main_v86_1) = C5 (launch m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (Cert.KernelIdeal.defs (F := Ideal)) _ _).mono
    (fun r h c => ⟨(h c).1.trans (out4_h m ρ c), (h c).2.1.trans (out4_c m ρ c), (h c).2.2⟩)
    (Cert.KernelIdeal.RunValue.run_results (F := Ideal) m ρ)

end Cert.Gcn.KValue

end
-- ==== Proof.RefLayers.lean ====
/-
  The reference's stages are the layer functions of the specification.

  Each of the reference's five layers takes the scattered messages `M`, scales row `r` by the degree factor `nd r`,
  contracts with the weights, adds the bias row, takes the maximum with zero and (except in the last layer) scales row
  `r` by `ns r`. Read index by index this is `relu (∑ₖ (M r k · nd r) · W k c + b c) · ns r`, the specification's
  `denseAt`; the last layer is `reluAt`, and the final stage is the indicator of `h ≥ 1/2`. The gather and scatter
  stages that produce `M` stay opaque: each layer is stated as a function of its own scatter result.
-/
import proofs.«176144_j76201309766160_2_alg».proof.Proof.Spec
import proofs.«176144_j76201309766160_2_alg».proof.Proof.Gen.ReferenceIdeal.Read

noncomputable section

namespace Cert.Gcn.Ref

open Cert.ReferenceIdeal Cert.ReferenceIdeal.Gen Cert.ReferenceIdeal.Read Idealize.ShloMosaic Idealize.ShloMosaic.ValueIdx

/-- Layer 1: the contraction reads the scaled messages at row `r`, column `k`. -/
theorem lidx_v29_ix2 (r : Fin 50000) (c k : Fin 128) : lidx_main_v29 (ix2 r c) k = ix2 r k :=
  funext fun a => Fin.ext (by match a with | ⟨0, _⟩ => rfl | ⟨1, _⟩ => rfl)
/-- Layer 1: the contraction reads the weights at row `k`, column `c`. -/
theorem ridx_v29_ix2 (r : Fin 50000) (c k : Fin 128) : ridx_main_v29 (ix2 r c) k = ix2 k c :=
  funext fun a => Fin.ext (by match a with | ⟨0, _⟩ => rfl | ⟨1, _⟩ => rfl)
/-- Layer 1: the scaling of the messages is read at row `r` of its column. -/
theorem idx_v27_ix2 (r : Fin 50000) (k : Fin 128) : idx_main_v27 (ix2 r k) = ix2 r 0 :=
  funext fun a => Fin.ext (by match a with | ⟨0, _⟩ => rfl | ⟨1, _⟩ => rfl)
/-- Layer 1: the bias is read at column `c` of its row. -/
theorem idx_v31_ix2 (r : Fin 50000) (c : Fin 128) : idx_main_v31 (ix2 r c) = ix2 0 c :=
  funext fun a => Fin.ext (by match a with | ⟨0, _⟩ => rfl | ⟨1, _⟩ => rfl)
/-- Layer 1: the trailing scaling is read at row `r` of its column. -/
theorem idx_v34_ix2 (r : Fin 50000) (c : Fin 128) : idx_main_v34 (ix2 r c) = ix2 r 0 :=
  funext fun a => Fin.ext (by match a with | ⟨0, _⟩ => rfl | ⟨1, _⟩ => rfl)

/-- Layer 1 of the reference is the dense layer on its aggregated messages. -/
theorem layer1 (x0 : (⟨S50000x128, .f32⟩ : BufTy).Contents (Elt Ideal)) (x1 x2 : (⟨S800000, .i32⟩ : BufTy).Contents (Elt Ideal)) (x3 : (⟨S128x128, .f32⟩ : BufTy).Contents (Elt Ideal)) (x8 : (⟨S128, .f32⟩ : BufTy).Contents (Elt Ideal)) :
    val_main_v35 (F := Ideal) x0 x1 x2 x3 x8
      = Cert.Gcn.dense (n := 50000) (val_main_v26 (F := Ideal) x0 x1 x2) (val_main_v14 (F := Ideal) x2)
          (val_main_v11 (F := Ideal) x1) x3 (val_main_v30 (F := Ideal) x8) := by
  funext i
  obtain ⟨r, c, rfl⟩ : ∃ (r : Fin 50000) (c : Fin 128), i = ix2 r c := ⟨i 0, i 1, eq_ix2 i⟩
  rw [Cert.Gcn.dense_apply]
  unfold Cert.Gcn.denseAt Cert.Gcn.reluAt
  rw [val_main_v35_apply, val_main_v33_apply, val_main_v32_apply, val_main_v29_apply, val_main_v31_apply,
    val_main_v34_apply, val_main_call2_v0_apply, val_main_call2_cst_apply, idx_v31_ix2, idx_v34_ix2]
  have hs : (∑ k : Fin 128, (val_main_v28 (F := Ideal) x0 x1 x2) (lidx_main_v29 (ix2 r c) k) * x3 (ridx_main_v29 (ix2 r c) k))
      = ∑ k : Fin 128, (val_main_v26 (F := Ideal) x0 x1 x2 (ix2 r k) * val_main_v14 (F := Ideal) x2 (ix2 r 0)) * x3 (ix2 k c) :=
    Finset.sum_congr rfl fun k _ => by
      rw [lidx_v29_ix2, ridx_v29_ix2, val_main_v28_apply, val_main_v27_apply, idx_v27_ix2, Ideal.mulf_def]
  rw [hs, Ideal.mulf_def, Ideal.maximumf_def, Ideal.addf_def, Ideal.ofBits_def]

/-- Layer 2: the contraction reads the scaled messages at row `r`, column `k`. -/
theorem lidx_v48_ix2 (r : Fin 50000) (c k : Fin 128) : lidx_main_v48 (ix2 r c) k = ix2 r k :=
  funext fun a => Fin.ext (by match a with | ⟨0, _⟩ => rfl | ⟨1, _⟩ => rfl)
/-- Layer 2: the contraction reads the weights at row `k`, column `c`. -/
theorem ridx_v48_ix2 (r : Fin 50000) (c k : Fin 128) : ridx_main_v48 (ix2 r c) k = ix2 k c :=
  funext fun a => Fin.ext (by match a with | ⟨0, _⟩ => rfl | ⟨1, _⟩ => rfl)
/-- Layer 2: the scaling of the messages is read at row `r` of its column. -/
theorem idx_v46_ix2 (r : Fin 50000) (k : Fin 128) : idx_main_v46 (ix2 r k) = ix2 r 0 :=
  funext fun a => Fin.ext (by match a with | ⟨0, _⟩ => rfl | ⟨1, _⟩ => rfl)
/-- Layer 2: the bias is read at column `c` of its row. -/
theorem idx_v50_ix2 (r : Fin 50000) (c : Fin 128) : idx_main_v50 (ix2 r c) = ix2 0 c :=
  funext fun a => Fin.ext (by match a with | ⟨0, _⟩ => rfl | ⟨1, _⟩ => rfl)
/-- Layer 2: the trailing scaling is read at row `r` of its column. -/
theorem idx_v53_ix2 (r : Fin 50000) (c : Fin 128) : idx_main_v53 (ix2 r c) = ix2 r 0 :=
  funext fun a => Fin.ext (by match a with | ⟨0, _⟩ => rfl | ⟨1, _⟩ => rfl)

/-- Layer 2 of the reference is the dense layer on its aggregated messages. -/
theorem layer2 (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x8 x9 : (⟨S128, .f32⟩ : BufTy).Contents (Elt Ideal)) :
    val_main_v54 (F := Ideal) x0 x1 x2 x3 x4 x8 x9
      = Cert.Gcn.dense (n := 50000) (val_main_v45 (F := Ideal) x0 x1 x2 x3 x8) (val_main_v14 (F := Ideal) x2)
          (val_main_v11 (F := Ideal) x1) x4 (val_main_v49 (F := Ideal) x9) := by
  funext i
  obtain ⟨r, c, rfl⟩ : ∃ (r : Fin 50000) (c : Fin 128), i = ix2 r c := ⟨i 0, i 1, eq_ix2 i⟩
  rw [Cert.Gcn.dense_apply]
  unfold Cert.Gcn.denseAt Cert.Gcn.reluAt
  rw [val_main_v54_apply, val_main_v52_apply, val_main_v51_apply, val_main_v48_apply, val_main_v50_apply,
    val_main_v53_apply, val_main_call3_v0_apply, val_main_call3_cst_apply, idx_v50_ix2, idx_v53_ix2]
  have hs : (∑ k : Fin 128, (val_main_v47 (F := Ideal) x0 x1 x2 x3 x8) (lidx_main_v48 (ix2 r c) k) * x4 (ridx_main_v48 (ix2 r c) k))
      = ∑ k : Fin 128, (val_main_v45 (F := Ideal) x0 x1 x2 x3 x8 (ix2 r k) * val_main_v14 (F := Ideal) x2 (ix2 r 0)) * x4 (ix2 k c) :=
    Finset.sum_congr rfl fun k _ => by
      rw [lidx_v48_ix2, ridx_v48_ix2, val_main_v47_apply, val_main_v46_apply, idx_v46_ix2, Ideal.mulf_def]
  rw [hs, Ideal.mulf_def, Ideal.maximumf_def, Ideal.addf_def, Ideal.ofBits_def]

/-- Layer 3: the contraction reads the scaled messages at row `r`, column `k`. -/
theorem lidx_v67_ix2 (r : Fin 50000) (c k : Fin 128) : lidx_main_v67 (ix2 r c) k = ix2 r k :=
  funext fun a => Fin.ext (by match a with | ⟨0, _⟩ => rfl | ⟨1, _⟩ => rfl)
/-- Layer 3: the contraction reads the weights at row `k`, column `c`. -/
theorem ridx_v67_ix2 (r : Fin 50000) (c k : Fin 128) : ridx_main_v67 (ix2 r c) k = ix2 k c :=
  funext fun a => Fin.ext (by match a with | ⟨0, _⟩ => rfl | ⟨1, _⟩ => rfl)
/-- Layer 3: the scaling of the messages is read at row `r` of its column. -/
theorem idx_v65_ix2 (r : Fin 50000) (k : Fin 128) : idx_main_v65 (ix2 r k) = ix2 r 0 :=
  funext fun a => Fin.ext (by match a with | ⟨0, _⟩ => rfl | ⟨1, _⟩ => rfl)
/-- Layer 3: the bias is read at column `c` of its row. -/
theorem idx_v69_ix2 (r : Fin 50000) (c : Fin 128) : idx_main_v69 (ix2 r c) = ix2 0 c :=
  funext fun a => Fin.ext (by match a with | ⟨0, _⟩ => rfl | ⟨1, _⟩ => rfl)
/-- Layer 3: the trailing scaling is read at row `r` of its column. -/
theorem idx_v72_ix2 (r : Fin 50000) (c : Fin 128) : idx_main_v72 (ix2 r c) = ix2 r 0 :=
  funext fun a => Fin.ext (by match a with | ⟨0, _⟩ => rfl | ⟨1, _⟩ => rfl)

/-- Layer 3 of the reference is the dense layer on its aggregated messages. -/
theorem layer3 (x0 : (⟨S50000x128, .f32⟩ : BufTy).Contents (Elt Ideal)) (x1 x2 : (⟨S800000, .i32⟩ : BufTy).Contents (Elt Ideal)) (x3 x4 x5 : (⟨S128x128, .f32⟩ : BufTy).Contents (Elt Ideal)) (x8 x9 x10 : (⟨S128, .f32⟩ : BufTy).Contents (Elt Ideal)) :
    val_main_v73 (F := Ideal) x0 x1 x2 x3 x4 x5 x8 x9 x10
      = Cert.Gcn.dense (n := 50000) (val_main_v64 (F := Ideal) x0 x1 x2 x3 x4 x8 x9) (val_main_v14 (F := Ideal) x2)
          (val_main_v11 (F := Ideal) x1) x5 (val_main_v68 (F := Ideal) x10) := by
  funext i
  obtain ⟨r, c, rfl⟩ : ∃ (r : Fin 50000) (c : Fin 128), i = ix2 r c := ⟨i 0, i 1, eq_ix2 i⟩
  rw [Cert.Gcn.dense_apply]
  unfold Cert.Gcn.denseAt Cert.Gcn.reluAt
  rw [val_main_v73_apply, val_main_v71_apply, val_main_v70_apply, val_main_v67_apply, val_main_v69_apply,
    val_main_v72_apply, val_main_call4_v0_apply, val_main_call4_cst_apply, idx_v69_ix2, idx_v72_ix2]
  have hs : (∑ k : Fin 128, (val_main_v66 (F := Ideal) x0 x1 x2 x3 x4 x8 x9) (lidx_main_v67 (ix2 r c) k) * x5 (ridx_main_v67 (ix2 r c) k))
      = ∑ k : Fin 128, (val_main_v64 (F := Ideal) x0 x1 x2 x3 x4 x8 x9 (ix2 r k) * val_main_v14 (F := Ideal) x2 (ix2 r 0)) * x5 (ix2 k c) :=
    Finset.sum_congr rfl fun k _ => by
      rw [lidx_v67_ix2, ridx_v67_ix2, val_main_v66_apply, val_main_v65_apply, idx_v65_ix2, Ideal.mulf_def]
  rw [hs, Ideal.mulf_def, Ideal.maximumf_def, Ideal.addf_def, Ideal.ofBits_def]

/-- Layer 4: the contraction reads the scaled messages at row `r`, column `k`. -/
theorem lidx_v86_ix2 (r : Fin 50000) (c k : Fin 128) : lidx_main_v86 (ix2 r c) k = ix2 r k :=
  funext fun a => Fin.ext (by match a with | ⟨0, _⟩ => rfl | ⟨1, _⟩ => rfl)
/-- Layer 4: the contraction reads the weights at row `k`, column `c`. -/
theorem ridx_v86_ix2 (r : Fin 50000) (c k : Fin 128) : ridx_main_v86 (ix2 r c) k = ix2 k c :=
  funext fun a => Fin.ext (by match a with | ⟨0, _⟩ => rfl | ⟨1, _⟩ => rfl)
/-- Layer 4: the scaling of the messages is read at row `r` of its column. -/
theorem idx_v84_ix2 (r : Fin 50000) (k : Fin 128) : idx_main_v84 (ix2 r k) = ix2 r 0 :=
  funext fun a => Fin.ext (by match a with | ⟨0, _⟩ => rfl | ⟨1, _⟩ => rfl)
/-- Layer 4: the bias is read at column `c` of its row. -/
theorem idx_v88_ix2 (r : Fin 50000) (c : Fin 128) : idx_main_v88 (ix2 r c) = ix2 0 c :=
  funext fun a => Fin.ext (by match a with | ⟨0, _⟩ => rfl | ⟨1, _⟩ => rfl)
/-- Layer 4: the trailing scaling is read at row `r` of its column. -/
theorem idx_v91_ix2 (r : Fin 50000) (c : Fin 128) : idx_main_v91 (ix2 r c) = ix2 r 0 :=
  funext fun a => Fin.ext (by match a with | ⟨0, _⟩ => rfl | ⟨1, _⟩ => rfl)

/-- Layer 4 of the reference is the dense layer on its aggregated messages. -/
theorem layer4 (x0 : (⟨S50000x128, .f32⟩ : BufTy).Contents (Elt Ideal)) (x1 x2 : (⟨S800000, .i32⟩ : BufTy).Contents (Elt Ideal)) (x3 x4 x5 x6 : (⟨S128x128, .f32⟩ : BufTy).Contents (Elt Ideal)) (x8 x9 x10 x11 : (⟨S128, .f32⟩ : BufTy).Contents (Elt Ideal)) :
    val_main_v92 (F := Ideal) x0 x1 x2 x3 x4 x5 x6 x8 x9 x10 x11
      = Cert.Gcn.dense (n := 50000) (val_main_v83 (F := Ideal) x0 x1 x2 x3 x4 x5 x8 x9 x10) (val_main_v14 (F := Ideal) x2)
          (val_main_v11 (F := Ideal) x1) x6 (val_main_v87 (F := Ideal) x11) := by
  funext i
  obtain ⟨r, c, rfl⟩ : ∃ (r : Fin 50000) (c : Fin 128), i = ix2 r c := ⟨i 0, i 1, eq_ix2 i⟩
  rw [Cert.Gcn.dense_apply]
  unfold Cert.Gcn.denseAt Cert.Gcn.reluAt
  rw [val_main_v92_apply, val_main_v90_apply, val_main_v89_apply, val_main_v86_apply, val_main_v88_apply,
    val_main_v91_apply, val_main_call5_v0_apply, val_main_call5_cst_apply, idx_v88_ix2, idx_v91_ix2]
  have hs : (∑ k : Fin 128, (val_main_v85 (F := Ideal) x0 x1 x2 x3 x4 x5 x8 x9 x10) (lidx_main_v86 (ix2 r c) k) * x6 (ridx_main_v86 (ix2 r c) k))
      = ∑ k : Fin 128, (val_main_v83 (F := Ideal) x0 x1 x2 x3 x4 x5 x8 x9 x10 (ix2 r k) * val_main_v14 (F := Ideal) x2 (ix2 r 0)) * x6 (ix2 k c) :=
    Finset.sum_congr rfl fun k _ => by
      rw [lidx_v86_ix2, ridx_v86_ix2, val_main_v85_apply, val_main_v84_apply, idx_v84_ix2, Ideal.mulf_def]
  rw [hs, Ideal.mulf_def, Ideal.maximumf_def, Ideal.addf_def, Ideal.ofBits_def]

/-- Layer 5: the contraction reads the scaled messages at row `r`, column `k`. -/
theorem lidx_v105_ix2 (r : Fin 50000) (c k : Fin 128) : lidx_main_v105 (ix2 r c) k = ix2 r k :=
  funext fun a => Fin.ext (by match a with | ⟨0, _⟩ => rfl | ⟨1, _⟩ => rfl)
/-- Layer 5: the contraction reads the weights at row `k`, column `c`. -/
theorem ridx_v105_ix2 (r : Fin 50000) (c k : Fin 128) : ridx_main_v105 (ix2 r c) k = ix2 k c :=
  funext fun a => Fin.ext (by match a with | ⟨0, _⟩ => rfl | ⟨1, _⟩ => rfl)
/-- Layer 5: the scaling of the messages is read at row `r` of its column. -/
theorem idx_v103_ix2 (r : Fin 50000) (k : Fin 128) : idx_main_v103 (ix2 r k) = ix2 r 0 :=
  funext fun a => Fin.ext (by match a with | ⟨0, _⟩ => rfl | ⟨1, _⟩ => rfl)
/-- Layer 5: the bias is read at column `c` of its row. -/
theorem idx_v107_ix2 (r : Fin 50000) (c : Fin 128) : idx_main_v107 (ix2 r c) = ix2 0 c :=
  funext fun a => Fin.ext (by match a with | ⟨0, _⟩ => rfl | ⟨1, _⟩ => rfl)

/-- Layer 5 of the reference is the final layer (no trailing scaling) on its aggregated messages. -/
theorem layer5 (x0 : (⟨S50000x128, .f32⟩ : BufTy).Contents (Elt Ideal)) (x1 x2 : (⟨S800000, .i32⟩ : BufTy).Contents (Elt Ideal)) (x3 x4 x5 x6 x7 : (⟨S128x128, .f32⟩ : BufTy).Contents (Elt Ideal)) (x8 x9 x10 x11 x12 : (⟨S128, .f32⟩ : BufTy).Contents (Elt Ideal)) :
    val_main_v109 (F := Ideal) x0 x1 x2 x3 x4 x5 x6 x7 x8 x9 x10 x11 x12
      = Cert.Gcn.denseLast (n := 50000) (val_main_v102 (F := Ideal) x0 x1 x2 x3 x4 x5 x6 x8 x9 x10 x11) (val_main_v14 (F := Ideal) x2)
          x7 (val_main_v106 (F := Ideal) x12) := by
  funext i
  obtain ⟨r, c, rfl⟩ : ∃ (r : Fin 50000) (c : Fin 128), i = ix2 r c := ⟨i 0, i 1, eq_ix2 i⟩
  rw [Cert.Gcn.denseLast_apply]
  unfold Cert.Gcn.reluAt
  rw [val_main_v109_apply, val_main_v108_apply, val_main_v105_apply, val_main_v107_apply,
    val_main_call6_v0_apply, val_main_call6_cst_apply, idx_v107_ix2]
  have hs : (∑ k : Fin 128, (val_main_v104 (F := Ideal) x0 x1 x2 x3 x4 x5 x6 x8 x9 x10 x11) (lidx_main_v105 (ix2 r c) k) * x7 (ridx_main_v105 (ix2 r c) k))
      = ∑ k : Fin 128, (val_main_v102 (F := Ideal) x0 x1 x2 x3 x4 x5 x6 x8 x9 x10 x11 (ix2 r k) * val_main_v14 (F := Ideal) x2 (ix2 r 0)) * x7 (ix2 k c) :=
    Finset.sum_congr rfl fun k _ => by
      rw [lidx_v105_ix2, ridx_v105_ix2, val_main_v104_apply, val_main_v103_apply, idx_v103_ix2, Ideal.mulf_def]
  rw [hs, Ideal.maximumf_def, Ideal.addf_def, Ideal.ofBits_def]

/-- The reference's last stage is the indicator of `h ≥ 1/2` on the final layer. -/
theorem threshold (x0 : (⟨S50000x128, .f32⟩ : BufTy).Contents (Elt Ideal)) (x1 x2 : (⟨S800000, .i32⟩ : BufTy).Contents (Elt Ideal)) (x3 x4 x5 x6 x7 : (⟨S128x128, .f32⟩ : BufTy).Contents (Elt Ideal)) (x8 x9 x10 x11 x12 : (⟨S128, .f32⟩ : BufTy).Contents (Elt Ideal)) :
    val_main_v112 (F := Ideal) x0 x1 x2 x3 x4 x5 x6 x7 x8 x9 x10 x11 x12
      = Cert.Gcn.thresh (n := 50000) (val_main_v109 (F := Ideal) x0 x1 x2 x3 x4 x5 x6 x7 x8 x9 x10 x11 x12) := by
  funext i
  unfold Cert.Gcn.thresh Cert.Gcn.threshAt
  rw [val_main_v112_apply, val_main_v111_apply, val_main_v110_apply, val_main_cst_20_apply,
    val_main_call7_v0_apply, val_main_cst_21_apply, val_main_call7_v1_apply, val_main_cst_22_apply,
    Ideal.ofBits_def, Ideal.ofBits_def, Ideal.ofBits_def]

end Cert.Gcn.Ref

end
-- ==== Proof.Bridge.lean ====
/-
  The kernel's layers are the reference's stages.

  The reference computes the same five layers with the trailing scaling by `ns` applied on the host before each
  aggregation instead of inside the previous kernel: its stage before each gather is `relu(…) · ns`, which is the kernel's
  layer with its trailing scaling. The two programs differ otherwise only in layout: the kernel reshapes a vector to a
  column or a row where the reference broadcasts it there, and the kernel changes float formats where the reference does
  not, which over the extended reals is the identity. The aggregation over the edges is the same host operation on both
  sides and is only ever compared as a whole.
-/
import proofs.«176144_j76201309766160_2_alg».proof.Proof.KernelValue
import proofs.«176144_j76201309766160_2_alg».proof.Proof.RefLayers
import proofs.«176144_j76201309766160_2_alg».proof.Proof.Gen.ReferenceIdeal.Read
import Idealize.ShloMosaic.Lib.Pipeline.Value
import Idealize.ShloMosaic.Lib.ValueLayout
import Idealize.ShloMosaic.Lib.ValueIdx

set_option maxRecDepth 16384

noncomputable section

namespace Cert.Gcn.Bridge

open Cert.KernelIdeal.Boundary Cert.Gcn.KValue Cert.ReferenceIdeal.Read
open Idealize.ShloMosaic Idealize.ShloMosaic.TcCoe Idealize.SL.Sem Idealize.ShloMosaic.ValueIdx

/-- A degree scaling is the same host term in both programs. -/
theorem degScale_src (a : (⟨Cert.KernelIdeal.S800000, .i32⟩ : BufTy).Contents (Elt Ideal)) :
    degScale (F := Ideal) a = val_main_v10 (F := Ideal) a := rfl

theorem degScale_dst (a : (⟨Cert.KernelIdeal.S800000, .i32⟩ : BufTy).Contents (Elt Ideal)) :
    degScale (F := Ideal) a = val_main_v13 (F := Ideal) a := rfl

/-- A vector reshaped to a column is the vector broadcast to a column: the source scaling. -/
theorem scaleCol_src (a : (⟨Cert.KernelIdeal.S800000, .i32⟩ : BufTy).Contents (Elt Ideal)) :
    scaleCol (F := Ideal) a = val_main_v11 (F := Ideal) a := by
  funext i
  obtain ⟨r, u, rfl⟩ : ∃ (r : Fin 50000) (u : Fin 1), i = ix2 r u := ⟨i 0, i 1, eq_ix2 i⟩
  rw [val_main_v11_apply]
  unfold scaleCol
  refine (shapeCast_apply (degScale (F := Ideal) a) _ (ix2 r u) (ix1 r) ?_).trans ?_
  · rw [Shape.rowMajor_val_two, Shape.rowMajor_val_one]
    show r.val = r.val * 1 + u.val
    omega
  · have e : idx_main_v11 (ix2 r u) = ix1 r := funext fun a => Fin.ext (by match a with | ⟨0, _⟩ => rfl)
    rw [e, degScale_src]

/-- The destination scaling likewise. -/
theorem scaleCol_dst (a : (⟨Cert.KernelIdeal.S800000, .i32⟩ : BufTy).Contents (Elt Ideal)) :
    scaleCol (F := Ideal) a = val_main_v14 (F := Ideal) a := by
  funext i
  obtain ⟨r, u, rfl⟩ : ∃ (r : Fin 50000) (u : Fin 1), i = ix2 r u := ⟨i 0, i 1, eq_ix2 i⟩
  rw [val_main_v14_apply]
  unfold scaleCol
  refine (shapeCast_apply (degScale (F := Ideal) a) _ (ix2 r u) (ix1 r) ?_).trans ?_
  · rw [Shape.rowMajor_val_two, Shape.rowMajor_val_one]
    show r.val = r.val * 1 + u.val
    omega
  · have e : idx_main_v14 (ix2 r u) = ix1 r := funext fun a => Fin.ext (by match a with | ⟨0, _⟩ => rfl)
    rw [e, degScale_dst]

/-- A vector reshaped to a row is the vector broadcast to a row. -/
theorem row_eq (b : (⟨Cert.KernelIdeal.S128, .f32⟩ : BufTy).Contents (Elt Ideal)) (i : Cert.KernelIdeal.S1x128.Idx) :
    row b i = b (ix1 (i 1)) := by
  obtain ⟨u, q, rfl⟩ : ∃ (u : Fin 1) (q : Fin 128), i = ix2 u q := ⟨i 0, i 1, eq_ix2 i⟩
  exact shapeCast_a_1a_apply b _ u q

theorem row_b1 (b : (⟨Cert.KernelIdeal.S128, .f32⟩ : BufTy).Contents (Elt Ideal)) : row b = val_main_v30 (F := Ideal) b := by
  funext i
  rw [row_eq, val_main_v30_apply]
  exact congrArg b (funext fun a => Fin.ext (by match a with | ⟨0, _⟩ => rfl))

theorem row_b2 (b : (⟨Cert.KernelIdeal.S128, .f32⟩ : BufTy).Contents (Elt Ideal)) : row b = val_main_v49 (F := Ideal) b := by
  funext i
  rw [row_eq, val_main_v49_apply]
  exact congrArg b (funext fun a => Fin.ext (by match a with | ⟨0, _⟩ => rfl))

theorem row_b3 (b : (⟨Cert.KernelIdeal.S128, .f32⟩ : BufTy).Contents (Elt Ideal)) : row b = val_main_v68 (F := Ideal) b := by
  funext i
  rw [row_eq, val_main_v68_apply]
  exact congrArg b (funext fun a => Fin.ext (by match a with | ⟨0, _⟩ => rfl))

theorem row_b4 (b : (⟨Cert.KernelIdeal.S128, .f32⟩ : BufTy).Contents (Elt Ideal)) : row b = val_main_v87 (F := Ideal) b := by
  funext i
  rw [row_eq, val_main_v87_apply]
  exact congrArg b (funext fun a => Fin.ext (by match a with | ⟨0, _⟩ => rfl))

theorem row_b5 (b : (⟨Cert.KernelIdeal.S128, .f32⟩ : BufTy).Contents (Elt Ideal)) : row b = val_main_v106 (F := Ideal) b := by
  funext i
  rw [row_eq, val_main_v106_apply]
  exact congrArg b (funext fun a => Fin.ext (by match a with | ⟨0, _⟩ => rfl))

variable (A : Args)

theorem ns_eq : ns A = val_main_v11 (F := Ideal) A.src := scaleCol_src A.src
theorem nd_eq : nd A = val_main_v14 (F := Ideal) A.dst := scaleCol_dst A.dst

/-- A change of float format is the identity over the extended reals. -/
theorem truncf_id {s : Shape} {φ ψ : FTy} (a : FVec Ideal s φ) (h : ψ.bits < φ.bits) : (truncf ψ a h : FVec Ideal s ψ) = a := rfl

/-- The scaled input features. -/
theorem scaledInput_eq : scaledInput (F := Ideal) A.x A.src = val_main_v16 (F := Ideal) A.x A.src := by
  unfold scaledInput
  rw [scaleCol_src]
  unfold val_main_v16 val_main_v15
  exact truncf_id _ _

theorem X1_eq : X1 A = val_main_v26 (F := Ideal) A.x A.src A.dst := by
  unfold X1
  rw [scaledInput_eq]
  rfl

theorem H1_eq : H1 A = val_main_v35 (F := Ideal) A.x A.src A.dst A.w1 A.b1 := by
  unfold H1
  rw [X1_eq, nd_eq, ns_eq, row_b1]
  exact (Cert.Gcn.Ref.layer1 A.x A.src A.dst A.w1 A.b1).symm

theorem X2_eq : X2 A = val_main_v45 (F := Ideal) A.x A.src A.dst A.w1 A.b1 := by
  unfold X2
  rw [H1_eq]
  rfl

theorem H2_eq : H2 A = val_main_v54 (F := Ideal) A.x A.src A.dst A.w1 A.w2 A.b1 A.b2 := by
  unfold H2
  rw [X2_eq, nd_eq, ns_eq, row_b2]
  exact (Cert.Gcn.Ref.layer2 A.x A.src A.dst A.w1 A.w2 A.b1 A.b2).symm

theorem X3_eq : X3 A = val_main_v64 (F := Ideal) A.x A.src A.dst A.w1 A.w2 A.b1 A.b2 := by
  unfold X3
  rw [H2_eq]
  rfl

theorem H3_eq : H3 A = val_main_v73 (F := Ideal) A.x A.src A.dst A.w1 A.w2 A.w3 A.b1 A.b2 A.b3 := by
  unfold H3
  rw [X3_eq, nd_eq, ns_eq, row_b3]
  exact (Cert.Gcn.Ref.layer3 A.x A.src A.dst A.w1 A.w2 A.w3 A.b1 A.b2 A.b3).symm

theorem X4_eq : X4 A = val_main_v83 (F := Ideal) A.x A.src A.dst A.w1 A.w2 A.w3 A.b1 A.b2 A.b3 := by
  unfold X4
  rw [H3_eq]
  rfl

theorem H4_eq : H4 A = val_main_v92 (F := Ideal) A.x A.src A.dst A.w1 A.w2 A.w3 A.w4 A.b1 A.b2 A.b3 A.b4 := by
  unfold H4
  rw [X4_eq, nd_eq, ns_eq, row_b4]
  exact (Cert.Gcn.Ref.layer4 A.x A.src A.dst A.w1 A.w2 A.w3 A.w4 A.b1 A.b2 A.b3 A.b4).symm

theorem X5_eq : X5 A = val_main_v102 (F := Ideal) A.x A.src A.dst A.w1 A.w2 A.w3 A.w4 A.b1 A.b2 A.b3 A.b4 := by
  unfold X5
  rw [H4_eq]
  rfl

/-- The kernel's first result is the reference's. -/
theorem H5_eq : H5 A = val_main_v109 (F := Ideal) A.x A.src A.dst A.w1 A.w2 A.w3 A.w4 A.w5 A.b1 A.b2 A.b3 A.b4 A.b5 := by
  unfold H5
  rw [X5_eq, nd_eq, row_b5]
  exact (Cert.Gcn.Ref.layer5 A.x A.src A.dst A.w1 A.w2 A.w3 A.w4 A.w5 A.b1 A.b2 A.b3 A.b4 A.b5).symm

/-- The kernel's second result is the reference's. -/
theorem C5_eq : C5 A = val_main_v112 (F := Ideal) A.x A.src A.dst A.w1 A.w2 A.w3 A.w4 A.w5 A.b1 A.b2 A.b3 A.b4 A.b5 := by
  unfold C5
  rw [H5_eq]
  exact (Cert.Gcn.Ref.threshold A.x A.src A.dst A.w1 A.w2 A.w3 A.w4 A.w5 A.b1 A.b2 A.b3 A.b4 A.b5).symm

end Cert.Gcn.Bridge

end
-- ==== Proof.lean ====
/-
  Five graph-convolution layers computed by tiled matrix kernels equal the same layers computed by whole-array operations.

  Both programs compute, from node features `x`, an edge list and five weight matrices and bias vectors,

      hⱼ₊₁ = relu ((agg (hⱼ · ns) · nd) Wⱼ₊₁ + bⱼ₊₁),     h₀ = x,

  where `agg` gathers rows at the edges' sources and adds them into the rows at their destinations and `ns`, `nd` are the
  degree scalings, and return `h₅` together with the indicator of `h₅ ≥ 1/2`. The kernel program multiplies by `ns` at the
  end of the previous layer's kernel rather than before the aggregation, tiles each layer's matrix product by blocks of 5000
  rows, and passes intermediate arrays through a narrower float format; over the extended reals none of this changes a
  value. The three frame claims are the generated frames (for the reference, its generated run with the results
  dropped); no operation was rewritten when the kernel was idealized; and the two results agree because each kernel
  layer, as a function of whole arrays (Proof/KernelValue.lean), is the reference's stage (Proof/Bridge.lean).
-/
import proofs.«176144_j76201309766160_2_alg».proof.Defs
import proofs.«176144_j76201309766160_2_alg».proof.Proof.Gen.Kernel
import proofs.«176144_j76201309766160_2_alg».proof.Proof.Gen.Kernel.Skeleton
import proofs.«176144_j76201309766160_2_alg».proof.Proof.Gen.Kernel.Launch
import proofs.«176144_j76201309766160_2_alg».proof.Proof.Gen.Kernel.Points
import proofs.«176144_j76201309766160_2_alg».proof.Proof.Gen.Kernel.Frame
import proofs.«176144_j76201309766160_2_alg».proof.Proof.Gen.KernelIdeal
import proofs.«176144_j76201309766160_2_alg».proof.Proof.Gen.KernelIdeal.Skeleton
import proofs.«176144_j76201309766160_2_alg».proof.Proof.Gen.KernelIdeal.Launch
import proofs.«176144_j76201309766160_2_alg».proof.Proof.Gen.KernelIdeal.Points
import proofs.«176144_j76201309766160_2_alg».proof.Proof.Gen.KernelIdeal.Frame
import proofs.«176144_j76201309766160_2_alg».proof.Proof.Gen.ReferenceIdeal
import proofs.«176144_j76201309766160_2_alg».proof.Proof.Gen.ReferenceIdeal.Run
import proofs.«176144_j76201309766160_2_alg».proof.Proof.Gen.ReferenceIdeal.Read
import proofs.«176144_j76201309766160_2_alg».proof.Proof.Gen.Pre_finite_inputs
import proofs.«176144_j76201309766160_2_alg».proof.Proof.KernelValue
import proofs.«176144_j76201309766160_2_alg».proof.Proof.Bridge
import Idealize.ShloMosaic.Adequacy
import Idealize.ShloMosaic.Init

set_option maxRecDepth 16384

noncomputable section

namespace Cert.Proof

open Idealize.ShloMosaic Idealize.SL.Sem

/-- The two idealized programs, run from memories agreeing on the arguments, end with equal results: the kernel's run
    names its results `H₅`, `C₅` of the launch arrays, the reference's run names its own as its last stages of the same
    arrays, and the two are one function. -/
theorem algebraic : Cert.algebraic_KernelIdeal_ReferenceIdeal := by
  intro m ρ m' ρ' _ hagree
  refine ⟨fun c => Cert.Gcn.KValue.H5 (Cert.Gcn.KValue.launch m c), fun c => Cert.Gcn.KValue.C5 (Cert.Gcn.KValue.launch m c),
    Cert.Gcn.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12⟩ := hagree c
    rw [Cert.ReferenceIdeal.Read.val_main_v109_eq, e0, e1, e2, e3, e4, e5, e6, e7, e8, e9, e10, e11, e12]
    exact (Cert.Gcn.Bridge.H5_eq (Cert.Gcn.KValue.launch m c)).symm
  · obtain ⟨e0, e1, e2, e3, e4, e5, e6, e7, e8, e9, e10, e11, e12⟩ := hagree c
    rw [Cert.ReferenceIdeal.Read.val_main_v112_eq, e0, e1, e2, e3, e4, e5, e6, e7, e8, e9, e10, e11, e12]
    exact (Cert.Gcn.Bridge.C5_eq (Cert.Gcn.KValue.launch m c)).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2.2) (Cert.ReferenceIdeal.Value.run (F := Ideal) m ρ),
    trivial,
    algebraic⟩

end Cert.Proof

end
